-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v246)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v246) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x4 : Shape := ⟨2, ![524288, 4]⟩
abbrev S128x512x512 : Shape := ⟨3, ![128, 512, 512]⟩
abbrev S2x4 : Shape := ⟨2, ![2, 4]⟩
abbrev S_ : Shape := ⟨0, ![]⟩

class Facts : Prop where
  bcast_S_S524288x4 : S_.BroadcastsInDim S524288x4 (![] : Fin 0 → Fin S524288x4.rank)
  reducesTo_S524288x4_S_d0_1 : S524288x4.ReducesTo [0, 1] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_
  bcast_S_S2x4 : S_.BroadcastsInDim S2x4 (![] : Fin 0 → Fin S2x4.rank)
  reducesTo_S2x4_S_d0_1 : S2x4.ReducesTo [0, 1] S_

variable [Facts]

def fn_part1 {F : FTy → Type} [FloatOps F] (main_v13 : IVec S_ 1) (main_v16 : IVec S2x4 1) : IVec S_ 1 :=
  let main_c_5 : IVec S_ 1 := constantI S_ 1 1#1
  let main_v17 : IVec S_ 1 := (fun x v => Host.reduce IntOp.andi x v reducesTo_S2x4_S_d0_1 h_S_) main_v16 main_c_5
  let main_v18 : IVec S_ 1 := andi main_v13 main_v17
  main_v18

def fn {F : FTy → Type} [FloatOps F] (main_arg0 : FVec F S524288x4 .f32) (main_arg1 : FVec F S128x512x512 .f32) (main_arg2 : FVec F S128x512x512 .f32) (main_arg3 : FVec F S2x4 .f32) : IVec S_ 1 :=
  let main_v0 : FVec F S524288x4 .f32 := Host.absf main_arg0
  let main_cst : FVec F S_ .f32 := constant S_ .f32 0x7F800000#32
  let main_v1 : FVec F S524288x4 .f32 := broadcastInDim S524288x4 ![] bcast_S_S524288x4 main_cst
  let main_v2 : IVec S524288x4 1 := cmpf .olt main_v0 main_v1
  let main_c : IVec S_ 1 := constantI S_ 1 1#1
  let main_v3 : IVec S_ 1 := (fun x v => Host.reduce IntOp.andi x v reducesTo_S524288x4_S_d0_1 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S128x512x512 .f32 := Host.absf main_arg2
  let main_cst_2 : FVec F S_ .f32 := constant S_ .f32 0x7F800000#32
  let main_v10 : FVec F S128x512x512 .f32 := broadcastInDim S128x512x512 ![] bcast_S_S128x512x512 main_cst_2
  let main_v11 : IVec S128x512x512 1 := cmpf .olt main_v9 main_v10
  let main_c_3 : IVec S_ 1 := constantI S_ 1 1#1
  let main_v12 : IVec S_ 1 := (fun x v => Host.reduce IntOp.andi x v reducesTo_S128x512x512_S_d0_1_2 h_S_) main_v11 main_c_3
  let main_v13 : IVec S_ 1 := andi main_v8 main_v12
  let main_v14 : FVec F S2x4 .f32 := Host.absf main_arg3
  let main_cst_4 : FVec F S_ .f32 := constant S_ .f32 0x7F800000#32
  let main_v15 : FVec F S2x4 .f32 := broadcastInDim S2x4 ![] bcast_S_S2x4 main_cst_4
  let main_v16 : IVec S2x4 1 := cmpf .olt main_v14 main_v15
  fn_part1 (F := F) main_v13 main_v16
-- ==== Kernel.lean ====
abbrev S524288x4 : Shape := ⟨2, ![524288, 4]⟩
abbrev S128x512x512 : Shape := ⟨3, ![128, 512, 512]⟩
abbrev S2x4 : Shape := ⟨2, ![2, 4]⟩
abbrev S512x512x128 : Shape := ⟨3, ![512, 512, 128]⟩
abbrev S1x4 : Shape := ⟨2, ![1, 4]⟩
abbrev S4 : Shape := ⟨1, ![4]⟩
abbrev S_ : Shape := ⟨0, ![]⟩
abbrev S524288x1 : Shape := ⟨2, ![524288, 1]⟩
abbrev S524288 : Shape := ⟨1, ![524288]⟩
abbrev S524288x2 : Shape := ⟨2, ![524288, 2]⟩
abbrev S524288x128 : Shape := ⟨2, ![524288, 128]⟩
abbrev S524288x8 : Shape := ⟨2, ![524288, 8]⟩
abbrev S8192x128 : Shape := ⟨2, ![8192, 128]⟩
abbrev S8192x8 : Shape := ⟨2, ![8192, 8]⟩

abbrev nBuf : Space → Nat
  | .hbm => 339
  | .vmem => 4
  | .smem => 0
  | _ => 0

abbrev hbmTy0_0 (i : Nat) : BufTy := match i % 128 with
  | 0 => ⟨S524288x4, .f32⟩
  | 1 => ⟨S128x512x512, .f32⟩
  | 2 => ⟨S128x512x512, .f32⟩
  | 3 => ⟨S2x4, .f32⟩
  | 4 => ⟨S512x512x128, .f32⟩
  | 5 => ⟨S512x512x128, .f32⟩
  | 6 => ⟨S1x4, .f32⟩
  | 7 => ⟨S4, .f32⟩
  | 8 => ⟨S1x4, .f32⟩
  | 9 => ⟨S524288x4, .f32⟩
  | 10 => ⟨S524288x4, .f32⟩
  | 11 => ⟨S1x4, .f32⟩
  | 12 => ⟨S4, .f32⟩
  | 13 => ⟨S1x4, .f32⟩
  | 14 => ⟨S4, .f32⟩
  | 15 => ⟨S4, .f32⟩
  | 16 => ⟨S1x4, .f32⟩
  | 17 => ⟨S524288x4, .f32⟩
  | 18 => ⟨S524288x4, .f32⟩
  | 19 => ⟨S_, .f32⟩
  | 20 => ⟨S524288x4, .f32⟩
  | 21 => ⟨S524288x4, .f32⟩
  | 22 => ⟨S_, .f32⟩
  | 23 => ⟨S524288x4, .f32⟩
  | 24 => ⟨S524288x4, .f32⟩
  | 25 => ⟨S524288x1, .f32⟩
  | 26 => ⟨S524288, .f32⟩
  | 27 => ⟨S524288x1, .f32⟩
  | 28 => ⟨S524288, .f32⟩
  | 29 => ⟨S_, .f32⟩
  | 30 => ⟨S524288, .f32⟩
  | 31 => ⟨S524288, .f32⟩
  | 32 => ⟨S_, .f32⟩
  | 33 => ⟨S524288, .f32⟩
  | 34 => ⟨S524288, .f32⟩
  | 35 => ⟨S_, .f32⟩
  | 36 => ⟨S524288, .f32⟩
  | 37 => ⟨S524288, .f32⟩
  | 38 => ⟨S_, .f32⟩
  | 39 => ⟨S524288, .f32⟩
  | 40 => ⟨S524288, .f32⟩
  | 41 => ⟨S_, .f32⟩
  | 42 => ⟨S524288, .f32⟩
  | 43 => ⟨S524288, .f32⟩
  | 44 => ⟨S_, .f32⟩
  | 45 => ⟨S524288, .f32⟩
  | 46 => ⟨S524288, .f32⟩
  | 47 => ⟨S524288, .f32⟩
  | 48 => ⟨S524288, .i32⟩
  | 49 => ⟨S_, .i32⟩
  | 50 => ⟨S_, .i32⟩
  | 51 => ⟨S_, .i32⟩
  | 52 => ⟨S524288, .i32⟩
  | 53 => ⟨S524288, .i32⟩
  | 54 => ⟨S_, .i32⟩
  | 55 => ⟨S524288, .i32⟩
  | 56 => ⟨S524288, .i32⟩
  | 57 => ⟨S524288, .f32⟩
  | 58 => ⟨S524288, .i32⟩
  | 59 => ⟨S_, .i32⟩
  | 60 => ⟨S_, .i32⟩
  | 61 => ⟨S_, .i32⟩
  | 62 => ⟨S524288, .i32⟩
  | 63 => ⟨S524288, .i32⟩
  | 64 => ⟨S_, .i32⟩
  | 65 => ⟨S524288, .i32⟩
  | 66 => ⟨S524288, .i32⟩
  | 67 => ⟨S524288, .f32⟩
  | 68 => ⟨S524288, .f32⟩
  | 69 => ⟨S524288x1, .f32⟩
  | 70 => ⟨S524288, .f32⟩
  | 71 => ⟨S524288, .f32⟩
  | 72 => ⟨S524288x1, .f32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S_, .i32⟩
  | 81 => ⟨S524288, .i32⟩
  | 82 => ⟨S524288, .i1⟩
  | 83 => ⟨S_, .i32⟩
  | 84 => ⟨S524288, .i32⟩
  | 85 => ⟨S524288, .i32⟩
  | 86 => ⟨S524288, .i32⟩
  | 87 => ⟨S524288x1, .i32⟩
  | 88 => ⟨S524288x1, .i32⟩
  | 89 => ⟨S524288x2, .i32⟩
  | 90 => ⟨S524288x128, .f32⟩
  | 91 => ⟨S_, .f32⟩
  | 92 => ⟨S524288x1, .f32⟩
  | 93 => ⟨S524288x1, .f32⟩
  | 94 => ⟨S524288x128, .f32⟩
  | 95 => ⟨S524288x128, .f32⟩
  | 96 => ⟨S_, .i32⟩
  | 97 => ⟨S524288, .i32⟩
  | 98 => ⟨S524288, .i32⟩
  | 99 => ⟨S_, .i32⟩
  | 100 => ⟨S524288, .i32⟩
  | 101 => ⟨S524288, .i1⟩
  | 102 => ⟨S_, .i32⟩
  | 103 => ⟨S524288, .i32⟩
  | 104 => ⟨S524288, .i32⟩
  | 105 => ⟨S524288, .i32⟩
  | 106 => ⟨S_, .i32⟩
  | 107 => ⟨S524288, .i32⟩
  | 108 => ⟨S524288, .i1⟩
  | 109 => ⟨S_, .i32⟩
  | 110 => ⟨S524288, .i32⟩
  | 111 => ⟨S524288, .i32⟩
  | 112 => ⟨S524288, .i32⟩
  | 113 => ⟨S524288x1, .i32⟩
  | 114 => ⟨S524288x1, .i32⟩
  | 115 => ⟨S524288x2, .i32⟩
  | 116 => ⟨S524288x128, .f32⟩
  | 117 => ⟨S524288x128, .f32⟩
  | 118 => ⟨S524288x128, .f32⟩
  | 119 => ⟨S524288x128, .f32⟩
  | 120 => ⟨S_, .i32⟩
  | 121 => ⟨S524288, .i32⟩
  | 122 => ⟨S524288, .i32⟩
  | 123 => ⟨S_, .i32⟩
  | 124 => ⟨S524288, .i32⟩
  | 125 => ⟨S524288, .i1⟩
  | 126 => ⟨S_, .i32⟩
  | 127 => ⟨S524288, .i32⟩
  | _ => ⟨S524288x4, .f32⟩

abbrev hbmTy0_1 (i : Nat) : BufTy := match i % 128 with
  | 0 => ⟨S524288, .i32⟩
  | 1 => ⟨S524288, .i32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288x1, .i32⟩
  | 11 => ⟨S524288x2, .i32⟩
  | 12 => ⟨S524288x128, .f32⟩
  | 13 => ⟨S_, .f32⟩
  | 14 => ⟨S524288x1, .f32⟩
  | 15 => ⟨S524288x1, .f32⟩
  | 16 => ⟨S524288x128, .f32⟩
  | 17 => ⟨S524288x128, .f32⟩
  | 18 => ⟨S_, .i32⟩
  | 19 => ⟨S524288, .i32⟩
  | 20 => ⟨S524288, .i32⟩
  | 21 => ⟨S_, .i32⟩
  | 22 => ⟨S524288, .i32⟩
  | 23 => ⟨S524288, .i32⟩
  | 24 => ⟨S_, .i32⟩
  | 25 => ⟨S524288, .i32⟩
  | 26 => ⟨S524288, .i1⟩
  | 27 => ⟨S_, .i32⟩
  | 28 => ⟨S524288, .i32⟩
  | 29 => ⟨S524288, .i32⟩
  | 30 => ⟨S524288, .i32⟩
  | 31 => ⟨S_, .i32⟩
  | 32 => ⟨S524288, .i32⟩
  | 33 => ⟨S524288, .i1⟩
  | 34 => ⟨S_, .i32⟩
  | 35 => ⟨S524288, .i32⟩
  | 36 => ⟨S524288, .i32⟩
  | 37 => ⟨S524288, .i32⟩
  | 38 => ⟨S524288x1, .i32⟩
  | 39 => ⟨S524288x1, .i32⟩
  | 40 => ⟨S524288x2, .i32⟩
  | 41 => ⟨S524288x128, .f32⟩
  | 42 => ⟨S524288x128, .f32⟩
  | 43 => ⟨S524288x128, .f32⟩
  | 44 => ⟨S524288x128, .f32⟩
  | 45 => ⟨S_, .f32⟩
  | 46 => ⟨S524288x1, .f32⟩
  | 47 => ⟨S524288x1, .f32⟩
  | 48 => ⟨S524288x128, .f32⟩
  | 49 => ⟨S524288x128, .f32⟩
  | 50 => ⟨S524288x128, .f32⟩
  | 51 => ⟨S524288x128, .f32⟩
  | 52 => ⟨S524288x128, .f32⟩
  | 53 => ⟨S524288x1, .f32⟩
  | 54 => ⟨S524288, .f32⟩
  | 55 => ⟨S524288x1, .f32⟩
  | 56 => ⟨S524288, .f32⟩
  | 57 => ⟨S_, .f32⟩
  | 58 => ⟨S524288, .f32⟩
  | 59 => ⟨S524288, .f32⟩
  | 60 => ⟨S_, .f32⟩
  | 61 => ⟨S524288, .f32⟩
  | 62 => ⟨S524288, .f32⟩
  | 63 => ⟨S_, .f32⟩
  | 64 => ⟨S524288, .f32⟩
  | 65 => ⟨S524288, .f32⟩
  | 66 => ⟨S_, .f32⟩
  | 67 => ⟨S524288, .f32⟩
  | 68 => ⟨S524288, .f32⟩
  | 69 => ⟨S_, .f32⟩
  | 70 => ⟨S524288, .f32⟩
  | 71 => ⟨S524288, .f32⟩
  | 72 => ⟨S_, .f32⟩
  | 73 => ⟨S524288, .f32⟩
  | 74 => ⟨S524288, .f32⟩
  | 75 => ⟨S524288, .f32⟩
  | 76 => ⟨S524288, .i32⟩
  | 77 => ⟨S_, .i32⟩
  | 78 => ⟨S_, .i32⟩
  | 79 => ⟨S_, .i32⟩
  | 80 => ⟨S524288, .i32⟩
  | 81 => ⟨S524288, .i32⟩
  | 82 => ⟨S_, .i32⟩
  | 83 => ⟨S524288, .i32⟩
  | 84 => ⟨S524288, .i32⟩
  | 85 => ⟨S524288, .f32⟩
  | 86 => ⟨S524288, .i32⟩
  | 87 => ⟨S_, .i32⟩
  | 88 => ⟨S_, .i32⟩
  | 89 => ⟨S_, .i32⟩
  | 90 => ⟨S524288, .i32⟩
  | 91 => ⟨S524288, .i32⟩
  | 92 => ⟨S_, .i32⟩
  | 93 => ⟨S524288, .i32⟩
  | 94 => ⟨S524288, .i32⟩
  | 95 => ⟨S524288, .f32⟩
  | 96 => ⟨S524288, .f32⟩
  | 97 => ⟨S524288x1, .f32⟩
  | 98 => ⟨S524288, .f32⟩
  | 99 => ⟨S524288, .f32⟩
  | 100 => ⟨S524288x1, .f32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S_, .i32⟩
  | 109 => ⟨S524288, .i32⟩
  | 110 => ⟨S524288, .i1⟩
  | 111 => ⟨S_, .i32⟩
  | 112 => ⟨S524288, .i32⟩
  | 113 => ⟨S524288, .i32⟩
  | 114 => ⟨S524288, .i32⟩
  | 115 => ⟨S524288x1, .i32⟩
  | 116 => ⟨S524288x1, .i32⟩
  | 117 => ⟨S524288x2, .i32⟩
  | 118 => ⟨S524288x128, .f32⟩
  | 119 => ⟨S_, .f32⟩
  | 120 => ⟨S524288x1, .f32⟩
  | 121 => ⟨S524288x1, .f32⟩
  | 122 => ⟨S524288x128, .f32⟩
  | 123 => ⟨S524288x128, .f32⟩
  | 124 => ⟨S_, .i32⟩
  | 125 => ⟨S524288, .i32⟩
  | 126 => ⟨S524288, .i32⟩
  | 127 => ⟨S_, .i32⟩
  | _ => ⟨S524288x4, .f32⟩

abbrev hbmTy0_2 (i : Nat) : BufTy := match i % 128 with
  | 0 => ⟨S524288, .i32⟩
  | 1 => ⟨S524288, .i1⟩
  | 2 => ⟨S_, .i32⟩
  | 3 => ⟨S524288, .i32⟩
  | 4 => ⟨S524288, .i32⟩
  | 5 => ⟨S524288, .i32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S524288x1, .i32⟩
  | 14 => ⟨S524288x1, .i32⟩
  | 15 => ⟨S524288x2, .i32⟩
  | 16 => ⟨S524288x128, .f32⟩
  | 17 => ⟨S524288x128, .f32⟩
  | 18 => ⟨S524288x128, .f32⟩
  | 19 => ⟨S524288x128, .f32⟩
  | 20 => ⟨S_, .i32⟩
  | 21 => ⟨S524288, .i32⟩
  | 22 => ⟨S524288, .i32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x1, .i32⟩
  | 39 => ⟨S524288x2, .i32⟩
  | 40 => ⟨S524288x128, .f32⟩
  | 41 => ⟨S_, .f32⟩
  | 42 => ⟨S524288x1, .f32⟩
  | 43 => ⟨S524288x1, .f32⟩
  | 44 => ⟨S524288x128, .f32⟩
  | 45 => ⟨S524288x128, .f32⟩
  | 46 => ⟨S_, .i32⟩
  | 47 => ⟨S524288, .i32⟩
  | 48 => ⟨S524288, .i32⟩
  | 49 => ⟨S_, .i32⟩
  | 50 => ⟨S524288, .i32⟩
  | 51 => ⟨S524288, .i32⟩
  | 52 => ⟨S_, .i32⟩
  | 53 => ⟨S524288, .i32⟩
  | 54 => ⟨S524288, .i1⟩
  | 55 => ⟨S_, .i32⟩
  | 56 => ⟨S524288, .i32⟩
  | 57 => ⟨S524288, .i32⟩
  | 58 => ⟨S524288, .i32⟩
  | 59 => ⟨S_, .i32⟩
  | 60 => ⟨S524288, .i32⟩
  | 61 => ⟨S524288, .i1⟩
  | 62 => ⟨S_, .i32⟩
  | 63 => ⟨S524288, .i32⟩
  | 64 => ⟨S524288, .i32⟩
  | 65 => ⟨S524288, .i32⟩
  | 66 => ⟨S524288x1, .i32⟩
  | 67 => ⟨S524288x1, .i32⟩
  | 68 => ⟨S524288x2, .i32⟩
  | 69 => ⟨S524288x128, .f32⟩
  | 70 => ⟨S524288x128, .f32⟩
  | 71 => ⟨S524288x128, .f32⟩
  | 72 => ⟨S524288x128, .f32⟩
  | 73 => ⟨S_, .f32⟩
  | 74 => ⟨S524288x1, .f32⟩
  | 75 => ⟨S524288x1, .f32⟩
  | 76 => ⟨S524288x128, .f32⟩
  | 77 => ⟨S524288x128, .f32⟩
  | 78 => ⟨S524288x128, .f32⟩
  | 79 => ⟨S524288x128, .f32⟩
  | 80 => ⟨S524288x128, .f32⟩
  | 81 => ⟨S524288x128, .f32⟩
  | 82 => ⟨S524288x8, .f32⟩
  | _ => ⟨S524288x4, .f32⟩

abbrev hbmTy (i : Nat) : BufTy := match i / 128 with
  | 0 => hbmTy0_0 i
  | 1 => hbmTy0_1 i
  | 2 => hbmTy0_2 i
  | _ => ⟨S524288x4, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x8, .f32⟩
  | .local _ .vmem, ⟨3, _⟩ => ⟨S8192x8, .f32⟩
  | _, _ => ⟨S524288x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_c_7 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_c_9 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_20 : Ref sig .tc := ⟨.hbm, 120, rfl⟩
abbrev main_v84 : Ref sig .tc := ⟨.hbm, 121, rfl⟩
abbrev main_v85 : Ref sig .tc := ⟨.hbm, 122, rfl⟩
abbrev main_c_21 : Ref sig .tc := ⟨.hbm, 123, rfl⟩
abbrev main_v86 : Ref sig .tc := ⟨.hbm, 124, rfl⟩
abbrev main_v87 : Ref sig .tc := ⟨.hbm, 125, rfl⟩
abbrev main_c_22 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_23 : Ref sig .tc := ⟨.hbm, 130, rfl⟩
abbrev main_v91 : Ref sig .tc := ⟨.hbm, 131, rfl⟩
abbrev main_v92 : Ref sig .tc := ⟨.hbm, 132, rfl⟩
abbrev main_c_24 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_25 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_26 : Ref sig .tc := ⟨.hbm, 146, rfl⟩
abbrev main_v104 : Ref sig .tc := ⟨.hbm, 147, rfl⟩
abbrev main_v105 : Ref sig .tc := ⟨.hbm, 148, rfl⟩
abbrev main_c_27 : Ref sig .tc := ⟨.hbm, 149, rfl⟩
abbrev main_v106 : Ref sig .tc := ⟨.hbm, 150, rfl⟩
abbrev main_v107 : Ref sig .tc := ⟨.hbm, 151, rfl⟩
abbrev main_c_28 : Ref sig .tc := ⟨.hbm, 152, rfl⟩
abbrev main_v108 : Ref sig .tc := ⟨.hbm, 153, rfl⟩
abbrev main_v109 : Ref sig .tc := ⟨.hbm, 154, rfl⟩
abbrev main_c_29 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_30 : Ref sig .tc := ⟨.hbm, 159, rfl⟩
abbrev main_v113 : Ref sig .tc := ⟨.hbm, 160, rfl⟩
abbrev main_v114 : Ref sig .tc := ⟨.hbm, 161, rfl⟩
abbrev main_c_31 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_32 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_33 : Ref sig .tc := ⟨.hbm, 185, rfl⟩
abbrev main_v136 : Ref sig .tc := ⟨.hbm, 186, rfl⟩
abbrev main_v137 : Ref sig .tc := ⟨.hbm, 187, rfl⟩
abbrev main_cst_34 : Ref sig .tc := ⟨.hbm, 188, rfl⟩
abbrev main_v138 : Ref sig .tc := ⟨.hbm, 189, rfl⟩
abbrev main_v139 : Ref sig .tc := ⟨.hbm, 190, rfl⟩
abbrev main_cst_35 : Ref sig .tc := ⟨.hbm, 191, rfl⟩
abbrev main_v140 : Ref sig .tc := ⟨.hbm, 192, rfl⟩
abbrev main_v141 : Ref sig .tc := ⟨.hbm, 193, rfl⟩
abbrev main_cst_36 : Ref sig .tc := ⟨.hbm, 194, rfl⟩
abbrev main_v142 : Ref sig .tc := ⟨.hbm, 195, rfl⟩
abbrev main_v143 : Ref sig .tc := ⟨.hbm, 196, rfl⟩
abbrev main_cst_37 : Ref sig .tc := ⟨.hbm, 197, rfl⟩
abbrev main_v144 : Ref sig .tc := ⟨.hbm, 198, rfl⟩
abbrev main_v145 : Ref sig .tc := ⟨.hbm, 199, rfl⟩
abbrev main_cst_38 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_c_39 : Ref sig .tc := ⟨.hbm, 205, rfl⟩
abbrev main_c_40 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_call2_v3 : Ref sig .tc := ⟨.hbm, 210, rfl⟩
abbrev main_call2_v4 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_c_41 : Ref sig .tc := ⟨.hbm, 215, rfl⟩
abbrev main_c_42 : Ref sig .tc := ⟨.hbm, 216, rfl⟩
abbrev main_call3_v0 : Ref sig .tc := ⟨.hbm, 217, rfl⟩
abbrev main_call3_v1 : Ref sig .tc := ⟨.hbm, 218, rfl⟩
abbrev main_call3_v2 : Ref sig .tc := ⟨.hbm, 219, rfl⟩
abbrev main_call3_v3 : Ref sig .tc := ⟨.hbm, 220, rfl⟩
abbrev main_call3_v4 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_c_43 : Ref sig .tc := ⟨.hbm, 229, rfl⟩
abbrev main_v160 : Ref sig .tc := ⟨.hbm, 230, rfl⟩
abbrev main_v161 : Ref sig .tc := ⟨.hbm, 231, rfl⟩
abbrev main_c_44 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_c_45 : Ref sig .tc := ⟨.hbm, 236, rfl⟩
abbrev main_v165 : Ref sig .tc := ⟨.hbm, 237, rfl⟩
abbrev main_v166 : Ref sig .tc := ⟨.hbm, 238, rfl⟩
abbrev main_c_46 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_cst_47 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_c_48 : Ref sig .tc := ⟨.hbm, 252, rfl⟩
abbrev main_v178 : Ref sig .tc := ⟨.hbm, 253, rfl⟩
abbrev main_v179 : Ref sig .tc := ⟨.hbm, 254, rfl⟩
abbrev main_c_49 : Ref sig .tc := ⟨.hbm, 255, rfl⟩
abbrev main_v180 : Ref sig .tc := ⟨.hbm, 256, rfl⟩
abbrev main_v181 : Ref sig .tc := ⟨.hbm, 257, rfl⟩
abbrev main_c_50 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_c_51 : Ref sig .tc := ⟨.hbm, 262, rfl⟩
abbrev main_v185 : Ref sig .tc := ⟨.hbm, 263, rfl⟩
abbrev main_v186 : Ref sig .tc := ⟨.hbm, 264, rfl⟩
abbrev main_c_52 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_c_53 : Ref sig .tc := ⟨.hbm, 276, rfl⟩
abbrev main_v197 : Ref sig .tc := ⟨.hbm, 277, rfl⟩
abbrev main_v198 : Ref sig .tc := ⟨.hbm, 278, rfl⟩
abbrev main_c_54 : Ref sig .tc := ⟨.hbm, 279, rfl⟩
abbrev main_v199 : Ref sig .tc := ⟨.hbm, 280, rfl⟩
abbrev main_v200 : Ref sig .tc := ⟨.hbm, 281, rfl⟩
abbrev main_c_55 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_c_56 : Ref sig .tc := ⟨.hbm, 286, rfl⟩
abbrev main_v204 : Ref sig .tc := ⟨.hbm, 287, rfl⟩
abbrev main_v205 : Ref sig .tc := ⟨.hbm, 288, rfl⟩
abbrev main_c_57 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_cst_58 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_c_59 : Ref sig .tc := ⟨.hbm, 302, rfl⟩
abbrev main_v217 : Ref sig .tc := ⟨.hbm, 303, rfl⟩
abbrev main_v218 : Ref sig .tc := ⟨.hbm, 304, rfl⟩
abbrev main_c_60 : Ref sig .tc := ⟨.hbm, 305, rfl⟩
abbrev main_v219 : Ref sig .tc := ⟨.hbm, 306, rfl⟩
abbrev main_v220 : Ref sig .tc := ⟨.hbm, 307, rfl⟩
abbrev main_c_61 : Ref sig .tc := ⟨.hbm, 308, rfl⟩
abbrev main_v221 : Ref sig .tc := ⟨.hbm, 309, rfl⟩
abbrev main_v222 : Ref sig .tc := ⟨.hbm, 310, rfl⟩
abbrev main_c_62 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_c_63 : Ref sig .tc := ⟨.hbm, 315, rfl⟩
abbrev main_v226 : Ref sig .tc := ⟨.hbm, 316, rfl⟩
abbrev main_v227 : Ref sig .tc := ⟨.hbm, 317, rfl⟩
abbrev main_c_64 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_cst_65 : Ref sig .tc := ⟨.hbm, 329, rfl⟩
abbrev main_v238 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S128x512x512_S512x512x128_1_2_0 : S128x512x512.Transposes [1, 2, 0] S512x512x128
  slices_S2x4_S1x4_0_0 : S2x4.Slices ![0, 0] S1x4
  shapeCasts_S1x4_S4 : S1x4.ShapeCasts S4
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  slices_S2x4_S1x4_1_0 : S2x4.Slices ![1, 0] S1x4
  bcast_S_S524288x4 : S_.BroadcastsInDim S524288x4 (![] : Fin 0 → Fin S524288x4.rank)
  slices_S524288x4_S524288x1_0_0 : S524288x4.Slices ![0, 0] S524288x1
  shapeCasts_S524288x1_S524288 : S524288x1.ShapeCasts S524288
  slices_S524288x4_S524288x1_0_1 : S524288x4.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  slices_S524288x4_S524288x1_0_2 : S524288x4.Slices ![0, 2] S524288x1
  slices_S524288x4_S524288x1_0_3 : S524288x4.Slices ![0, 3] S524288x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S8192x128_o0_0_S8192x8 : S8192x128.Slices ![0, 0] S8192x8
  slices_S8192x128_o0_8_S8192x8 : S8192x128.Slices ![0, 8] S8192x8
  slices_S8192x128_o0_16_S8192x8 : S8192x128.Slices ![0, 16] S8192x8
  slices_S8192x128_o0_24_S8192x8 : S8192x128.Slices ![0, 24] S8192x8
  slices_S8192x128_o0_32_S8192x8 : S8192x128.Slices ![0, 32] S8192x8
  slices_S8192x128_o0_40_S8192x8 : S8192x128.Slices ![0, 40] S8192x8
  slices_S8192x128_o0_48_S8192x8 : S8192x128.Slices ![0, 48] S8192x8
  slices_S8192x128_o0_56_S8192x8 : S8192x128.Slices ![0, 56] S8192x8
  slices_S8192x128_o0_64_S8192x8 : S8192x128.Slices ![0, 64] S8192x8
  slices_S8192x128_o0_72_S8192x8 : S8192x128.Slices ![0, 72] S8192x8
  slices_S8192x128_o0_80_S8192x8 : S8192x128.Slices ![0, 80] S8192x8
  slices_S8192x128_o0_88_S8192x8 : S8192x128.Slices ![0, 88] S8192x8
  slices_S8192x128_o0_96_S8192x8 : S8192x128.Slices ![0, 96] S8192x8
  slices_S8192x128_o0_104_S8192x8 : S8192x128.Slices ![0, 104] S8192x8
  slices_S8192x128_o0_112_S8192x8 : S8192x128.Slices ![0, 112] S8192x8
  slices_S8192x128_o0_120_S8192x8 : S8192x128.Slices ![0, 120] S8192x8
  inb_S8192x8_S8192x8_0_0 : ∀ a, (![0, 0] : Fin 2 → Nat) a + S8192x8.size a ≤ S8192x8.size a
  h_S8192x8 : 0 < S8192x8.numel
  gather_S512x512x128_S524288x2_S524288x128_1_01_n_n_01_1_11128_wf : GatherDims.WF S512x512x128 S524288x2 S524288x128 [1] [0, 1] [] [0, 1] [] 1 ![1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S524288x8.size a
  hwx0_1 : ∀ i : grid0.Coords, EltTy.bits .f32 = 32 ∨ (Rect.block (s := S524288x8) S8192x8.size (cc0_transform_1 i) (hinb0_1 i)).WholeWords (EltTy.packing .f32)

variable [Facts₀]

def gather_S512x512x128_S524288x2_S524288x128_1_01_n_n_01_1_11128 : GatherDims S512x512x128 S524288x2 S524288x128 where
  offsetDims := [1]
  collapsedSliceDims := [0, 1]
  operandBatchingDims := []
  startIndicesBatchingDims := []
  startIndexMap := [0, 1]
  indexVectorDim := 1
  sliceSizes := ![1, 1, 128]
  wf := gather_S512x512x128_S524288x2_S524288x128_1_01_n_n_01_1_11128_wf

abbrev win0_0 : Pipeline.Window sig grid0 :=
  Pipeline.Window.ofSpec (Memref.whole main_v245) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v246) S8192x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S524288x4 : Shape := ⟨2, ![524288, 4]⟩
abbrev S128x512x512 : Shape := ⟨3, ![128, 512, 512]⟩
abbrev S2x4 : Shape := ⟨2, ![2, 4]⟩
abbrev S1x4 : Shape := ⟨2, ![1, 4]⟩
abbrev S4 : Shape := ⟨1, ![4]⟩
abbrev S_ : Shape := ⟨0, ![]⟩
abbrev S524288x1 : Shape := ⟨2, ![524288, 1]⟩
abbrev S524288 : Shape := ⟨1, ![524288]⟩
abbrev S524288x2 : Shape := ⟨2, ![524288, 2]⟩
abbrev S128x524288 : Shape := ⟨2, ![128, 524288]⟩
abbrev S1x524288 : Shape := ⟨2, ![1, 524288]⟩
abbrev S524288x128 : Shape := ⟨2, ![524288, 128]⟩
abbrev S524288x16x8 : Shape := ⟨3, ![524288, 16, 8]⟩
abbrev S524288x8 : Shape := ⟨2, ![524288, 8]⟩

abbrev nBuf : Space → Nat
  | .hbm => 356
  | .vmem => 0
  | .smem => 0
  | _ => 0

abbrev hbmTy0_0 (i : Nat) : BufTy := match i % 128 with
  | 0 => ⟨S524288x4, .f32⟩
  | 1 => ⟨S128x512x512, .f32⟩
  | 2 => ⟨S128x512x512, .f32⟩
  | 3 => ⟨S2x4, .f32⟩
  | 4 => ⟨S1x4, .f32⟩
  | 5 => ⟨S4, .f32⟩
  | 6 => ⟨S1x4, .f32⟩
  | 7 => ⟨S524288x4, .f32⟩
  | 8 => ⟨S524288x4, .f32⟩
  | 9 => ⟨S1x4, .f32⟩
  | 10 => ⟨S4, .f32⟩
  | 11 => ⟨S1x4, .f32⟩
  | 12 => ⟨S4, .f32⟩
  | 13 => ⟨S4, .f32⟩
  | 14 => ⟨S1x4, .f32⟩
  | 15 => ⟨S524288x4, .f32⟩
  | 16 => ⟨S524288x4, .f32⟩
  | 17 => ⟨S_, .f32⟩
  | 18 => ⟨S524288x4, .f32⟩
  | 19 => ⟨S524288x4, .f32⟩
  | 20 => ⟨S_, .f32⟩
  | 21 => ⟨S524288x4, .f32⟩
  | 22 => ⟨S524288x4, .f32⟩
  | 23 => ⟨S524288x1, .f32⟩
  | 24 => ⟨S524288, .f32⟩
  | 25 => ⟨S524288x1, .f32⟩
  | 26 => ⟨S524288, .f32⟩
  | 27 => ⟨S_, .f32⟩
  | 28 => ⟨S524288, .f32⟩
  | 29 => ⟨S524288, .f32⟩
  | 30 => ⟨S_, .f32⟩
  | 31 => ⟨S524288, .f32⟩
  | 32 => ⟨S524288, .f32⟩
  | 33 => ⟨S_, .f32⟩
  | 34 => ⟨S524288, .f32⟩
  | 35 => ⟨S524288, .f32⟩
  | 36 => ⟨S_, .f32⟩
  | 37 => ⟨S524288, .f32⟩
  | 38 => ⟨S524288, .f32⟩
  | 39 => ⟨S_, .f32⟩
  | 40 => ⟨S524288, .f32⟩
  | 41 => ⟨S524288, .f32⟩
  | 42 => ⟨S_, .f32⟩
  | 43 => ⟨S524288, .f32⟩
  | 44 => ⟨S524288, .f32⟩
  | 45 => ⟨S524288, .f32⟩
  | 46 => ⟨S524288, .i32⟩
  | 47 => ⟨S_, .i32⟩
  | 48 => ⟨S_, .i32⟩
  | 49 => ⟨S_, .i32⟩
  | 50 => ⟨S524288, .i32⟩
  | 51 => ⟨S524288, .i32⟩
  | 52 => ⟨S_, .i32⟩
  | 53 => ⟨S524288, .i32⟩
  | 54 => ⟨S524288, .i32⟩
  | 55 => ⟨S524288, .f32⟩
  | 56 => ⟨S524288, .i32⟩
  | 57 => ⟨S_, .i32⟩
  | 58 => ⟨S_, .i32⟩
  | 59 => ⟨S_, .i32⟩
  | 60 => ⟨S524288, .i32⟩
  | 61 => ⟨S524288, .i32⟩
  | 62 => ⟨S_, .i32⟩
  | 63 => ⟨S524288, .i32⟩
  | 64 => ⟨S524288, .i32⟩
  | 65 => ⟨S524288, .f32⟩
  | 66 => ⟨S524288, .f32⟩
  | 67 => ⟨S524288, .f32⟩
  | 68 => ⟨S524288, .f32⟩
  | 69 => ⟨S_, .i32⟩
  | 70 => ⟨S524288, .i32⟩
  | 71 => ⟨S524288, .i1⟩
  | 72 => ⟨S_, .i32⟩
  | 73 => ⟨S524288, .i32⟩
  | 74 => ⟨S524288, .i32⟩
  | 75 => ⟨S524288, .i32⟩
  | 76 => ⟨S_, .i32⟩
  | 77 => ⟨S524288, .i32⟩
  | 78 => ⟨S524288, .i1⟩
  | 79 => ⟨S_, .i32⟩
  | 80 => ⟨S524288, .i32⟩
  | 81 => ⟨S524288, .i32⟩
  | 82 => ⟨S524288, .i32⟩
  | 83 => ⟨S524288x1, .i32⟩
  | 84 => ⟨S524288x1, .i32⟩
  | 85 => ⟨S524288x2, .i32⟩
  | 86 => ⟨S128x524288, .f32⟩
  | 87 => ⟨S_, .f32⟩
  | 88 => ⟨S524288, .f32⟩
  | 89 => ⟨S524288, .f32⟩
  | 90 => ⟨S1x524288, .f32⟩
  | 91 => ⟨S128x524288, .f32⟩
  | 92 => ⟨S128x524288, .f32⟩
  | 93 => ⟨S_, .i32⟩
  | 94 => ⟨S524288, .i32⟩
  | 95 => ⟨S524288, .i32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S_, .i32⟩
  | 104 => ⟨S524288, .i32⟩
  | 105 => ⟨S524288, .i1⟩
  | 106 => ⟨S_, .i32⟩
  | 107 => ⟨S524288, .i32⟩
  | 108 => ⟨S524288, .i32⟩
  | 109 => ⟨S524288, .i32⟩
  | 110 => ⟨S524288x1, .i32⟩
  | 111 => ⟨S524288x1, .i32⟩
  | 112 => ⟨S524288x2, .i32⟩
  | 113 => ⟨S128x524288, .f32⟩
  | 114 => ⟨S1x524288, .f32⟩
  | 115 => ⟨S128x524288, .f32⟩
  | 116 => ⟨S128x524288, .f32⟩
  | 117 => ⟨S128x524288, .f32⟩
  | 118 => ⟨S_, .i32⟩
  | 119 => ⟨S524288, .i32⟩
  | 120 => ⟨S524288, .i32⟩
  | 121 => ⟨S_, .i32⟩
  | 122 => ⟨S524288, .i32⟩
  | 123 => ⟨S524288, .i1⟩
  | 124 => ⟨S_, .i32⟩
  | 125 => ⟨S524288, .i32⟩
  | 126 => ⟨S524288, .i32⟩
  | 127 => ⟨S524288, .i32⟩
  | _ => ⟨S524288x4, .f32⟩

abbrev hbmTy0_1 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288x1, .i32⟩
  | 9 => ⟨S524288x2, .i32⟩
  | 10 => ⟨S128x524288, .f32⟩
  | 11 => ⟨S_, .f32⟩
  | 12 => ⟨S524288, .f32⟩
  | 13 => ⟨S524288, .f32⟩
  | 14 => ⟨S1x524288, .f32⟩
  | 15 => ⟨S128x524288, .f32⟩
  | 16 => ⟨S128x524288, .f32⟩
  | 17 => ⟨S_, .i32⟩
  | 18 => ⟨S524288, .i32⟩
  | 19 => ⟨S524288, .i32⟩
  | 20 => ⟨S_, .i32⟩
  | 21 => ⟨S524288, .i32⟩
  | 22 => ⟨S524288, .i32⟩
  | 23 => ⟨S_, .i32⟩
  | 24 => ⟨S524288, .i32⟩
  | 25 => ⟨S524288, .i1⟩
  | 26 => ⟨S_, .i32⟩
  | 27 => ⟨S524288, .i32⟩
  | 28 => ⟨S524288, .i32⟩
  | 29 => ⟨S524288, .i32⟩
  | 30 => ⟨S_, .i32⟩
  | 31 => ⟨S524288, .i32⟩
  | 32 => ⟨S524288, .i1⟩
  | 33 => ⟨S_, .i32⟩
  | 34 => ⟨S524288, .i32⟩
  | 35 => ⟨S524288, .i32⟩
  | 36 => ⟨S524288, .i32⟩
  | 37 => ⟨S524288x1, .i32⟩
  | 38 => ⟨S524288x1, .i32⟩
  | 39 => ⟨S524288x2, .i32⟩
  | 40 => ⟨S128x524288, .f32⟩
  | 41 => ⟨S1x524288, .f32⟩
  | 42 => ⟨S128x524288, .f32⟩
  | 43 => ⟨S128x524288, .f32⟩
  | 44 => ⟨S128x524288, .f32⟩
  | 45 => ⟨S_, .f32⟩
  | 46 => ⟨S524288, .f32⟩
  | 47 => ⟨S524288, .f32⟩
  | 48 => ⟨S1x524288, .f32⟩
  | 49 => ⟨S128x524288, .f32⟩
  | 50 => ⟨S128x524288, .f32⟩
  | 51 => ⟨S1x524288, .f32⟩
  | 52 => ⟨S128x524288, .f32⟩
  | 53 => ⟨S128x524288, .f32⟩
  | 54 => ⟨S128x524288, .f32⟩
  | 55 => ⟨S524288x1, .f32⟩
  | 56 => ⟨S524288, .f32⟩
  | 57 => ⟨S524288x1, .f32⟩
  | 58 => ⟨S524288, .f32⟩
  | 59 => ⟨S_, .f32⟩
  | 60 => ⟨S524288, .f32⟩
  | 61 => ⟨S524288, .f32⟩
  | 62 => ⟨S_, .f32⟩
  | 63 => ⟨S524288, .f32⟩
  | 64 => ⟨S524288, .f32⟩
  | 65 => ⟨S_, .f32⟩
  | 66 => ⟨S524288, .f32⟩
  | 67 => ⟨S524288, .f32⟩
  | 68 => ⟨S_, .f32⟩
  | 69 => ⟨S524288, .f32⟩
  | 70 => ⟨S524288, .f32⟩
  | 71 => ⟨S_, .f32⟩
  | 72 => ⟨S524288, .f32⟩
  | 73 => ⟨S524288, .f32⟩
  | 74 => ⟨S_, .f32⟩
  | 75 => ⟨S524288, .f32⟩
  | 76 => ⟨S524288, .f32⟩
  | 77 => ⟨S524288, .f32⟩
  | 78 => ⟨S524288, .i32⟩
  | 79 => ⟨S_, .i32⟩
  | 80 => ⟨S_, .i32⟩
  | 81 => ⟨S_, .i32⟩
  | 82 => ⟨S524288, .i32⟩
  | 83 => ⟨S524288, .i32⟩
  | 84 => ⟨S_, .i32⟩
  | 85 => ⟨S524288, .i32⟩
  | 86 => ⟨S524288, .i32⟩
  | 87 => ⟨S524288, .f32⟩
  | 88 => ⟨S524288, .i32⟩
  | 89 => ⟨S_, .i32⟩
  | 90 => ⟨S_, .i32⟩
  | 91 => ⟨S_, .i32⟩
  | 92 => ⟨S524288, .i32⟩
  | 93 => ⟨S524288, .i32⟩
  | 94 => ⟨S_, .i32⟩
  | 95 => ⟨S524288, .i32⟩
  | 96 => ⟨S524288, .i32⟩
  | 97 => ⟨S524288, .f32⟩
  | 98 => ⟨S524288, .f32⟩
  | 99 => ⟨S524288, .f32⟩
  | 100 => ⟨S524288, .f32⟩
  | 101 => ⟨S_, .i32⟩
  | 102 => ⟨S524288, .i32⟩
  | 103 => ⟨S524288, .i1⟩
  | 104 => ⟨S_, .i32⟩
  | 105 => ⟨S524288, .i32⟩
  | 106 => ⟨S524288, .i32⟩
  | 107 => ⟨S524288, .i32⟩
  | 108 => ⟨S_, .i32⟩
  | 109 => ⟨S524288, .i32⟩
  | 110 => ⟨S524288, .i1⟩
  | 111 => ⟨S_, .i32⟩
  | 112 => ⟨S524288, .i32⟩
  | 113 => ⟨S524288, .i32⟩
  | 114 => ⟨S524288, .i32⟩
  | 115 => ⟨S524288x1, .i32⟩
  | 116 => ⟨S524288x1, .i32⟩
  | 117 => ⟨S524288x2, .i32⟩
  | 118 => ⟨S128x524288, .f32⟩
  | 119 => ⟨S_, .f32⟩
  | 120 => ⟨S524288, .f32⟩
  | 121 => ⟨S524288, .f32⟩
  | 122 => ⟨S1x524288, .f32⟩
  | 123 => ⟨S128x524288, .f32⟩
  | 124 => ⟨S128x524288, .f32⟩
  | 125 => ⟨S_, .i32⟩
  | 126 => ⟨S524288, .i32⟩
  | 127 => ⟨S524288, .i32⟩
  | _ => ⟨S524288x4, .f32⟩

abbrev hbmTy0_2 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S524288x1, .i32⟩
  | 15 => ⟨S524288x1, .i32⟩
  | 16 => ⟨S524288x2, .i32⟩
  | 17 => ⟨S128x524288, .f32⟩
  | 18 => ⟨S1x524288, .f32⟩
  | 19 => ⟨S128x524288, .f32⟩
  | 20 => ⟨S128x524288, .f32⟩
  | 21 => ⟨S128x524288, .f32⟩
  | 22 => ⟨S_, .i32⟩
  | 23 => ⟨S524288, .i32⟩
  | 24 => ⟨S524288, .i32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S524288x1, .i32⟩
  | 41 => ⟨S524288x2, .i32⟩
  | 42 => ⟨S128x524288, .f32⟩
  | 43 => ⟨S_, .f32⟩
  | 44 => ⟨S524288, .f32⟩
  | 45 => ⟨S524288, .f32⟩
  | 46 => ⟨S1x524288, .f32⟩
  | 47 => ⟨S128x524288, .f32⟩
  | 48 => ⟨S128x524288, .f32⟩
  | 49 => ⟨S_, .i32⟩
  | 50 => ⟨S524288, .i32⟩
  | 51 => ⟨S524288, .i32⟩
  | 52 => ⟨S_, .i32⟩
  | 53 => ⟨S524288, .i32⟩
  | 54 => ⟨S524288, .i32⟩
  | 55 => ⟨S_, .i32⟩
  | 56 => ⟨S524288, .i32⟩
  | 57 => ⟨S524288, .i1⟩
  | 58 => ⟨S_, .i32⟩
  | 59 => ⟨S524288, .i32⟩
  | 60 => ⟨S524288, .i32⟩
  | 61 => ⟨S524288, .i32⟩
  | 62 => ⟨S_, .i32⟩
  | 63 => ⟨S524288, .i32⟩
  | 64 => ⟨S524288, .i1⟩
  | 65 => ⟨S_, .i32⟩
  | 66 => ⟨S524288, .i32⟩
  | 67 => ⟨S524288, .i32⟩
  | 68 => ⟨S524288, .i32⟩
  | 69 => ⟨S524288x1, .i32⟩
  | 70 => ⟨S524288x1, .i32⟩
  | 71 => ⟨S524288x2, .i32⟩
  | 72 => ⟨S128x524288, .f32⟩
  | 73 => ⟨S1x524288, .f32⟩
  | 74 => ⟨S128x524288, .f32⟩
  | 75 => ⟨S128x524288, .f32⟩
  | 76 => ⟨S128x524288, .f32⟩
  | 77 => ⟨S_, .f32⟩
  | 78 => ⟨S524288, .f32⟩
  | 79 => ⟨S524288, .f32⟩
  | 80 => ⟨S1x524288, .f32⟩
  | 81 => ⟨S128x524288, .f32⟩
  | 82 => ⟨S128x524288, .f32⟩
  | 83 => ⟨S1x524288, .f32⟩
  | 84 => ⟨S128x524288, .f32⟩
  | 85 => ⟨S128x524288, .f32⟩
  | 86 => ⟨S128x524288, .f32⟩
  | 87 => ⟨S128x524288, .f32⟩
  | 88 => ⟨S524288x128, .f32⟩
  | 89 => ⟨S524288x16x8, .f32⟩
  | 90 => ⟨S_, .f32⟩
  | 91 => ⟨S524288x8, .f32⟩
  | 92 => ⟨S524288x8, .f32⟩
  | 93 => ⟨S524288x8, .f32⟩
  | 94 => ⟨S_, .f32⟩
  | 95 => ⟨S524288x8, .f32⟩
  | 96 => ⟨S524288x8, .f32⟩
  | 97 => ⟨S_, .f32⟩
  | 98 => ⟨S524288x8, .f32⟩
  | 99 => ⟨S524288x8, .f32⟩
  | _ => ⟨S524288x4, .f32⟩

abbrev hbmTy (i : Nat) : BufTy := match i / 128 with
  | 0 => hbmTy0_0 i
  | 1 => hbmTy0_1 i
  | 2 => hbmTy0_2 i
  | _ => ⟨S524288x4, .f32⟩

abbrev bufTy : (tb : Table) → Fin (tcTables nBuf tb) → BufTy
  | .hbm, ⟨i, _⟩ => hbmTy i
  | _, _ => ⟨S524288x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_c_7 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_c_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_12 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_c_17 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_c_19 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_20 : Ref sig .tc := ⟨.hbm, 118, rfl⟩
abbrev main_v82 : Ref sig .tc := ⟨.hbm, 119, rfl⟩
abbrev main_v83 : Ref sig .tc := ⟨.hbm, 120, rfl⟩
abbrev main_c_21 : Ref sig .tc := ⟨.hbm, 121, rfl⟩
abbrev main_v84 : Ref sig .tc := ⟨.hbm, 122, rfl⟩
abbrev main_v85 : Ref sig .tc := ⟨.hbm, 123, rfl⟩
abbrev main_c_22 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_23 : Ref sig .tc := ⟨.hbm, 128, rfl⟩
abbrev main_v89 : Ref sig .tc := ⟨.hbm, 129, rfl⟩
abbrev main_v90 : Ref sig .tc := ⟨.hbm, 130, rfl⟩
abbrev main_c_24 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_25 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_26 : Ref sig .tc := ⟨.hbm, 145, rfl⟩
abbrev main_v103 : Ref sig .tc := ⟨.hbm, 146, rfl⟩
abbrev main_v104 : Ref sig .tc := ⟨.hbm, 147, rfl⟩
abbrev main_c_27 : Ref sig .tc := ⟨.hbm, 148, rfl⟩
abbrev main_v105 : Ref sig .tc := ⟨.hbm, 149, rfl⟩
abbrev main_v106 : Ref sig .tc := ⟨.hbm, 150, rfl⟩
abbrev main_c_28 : Ref sig .tc := ⟨.hbm, 151, rfl⟩
abbrev main_v107 : Ref sig .tc := ⟨.hbm, 152, rfl⟩
abbrev main_v108 : Ref sig .tc := ⟨.hbm, 153, rfl⟩
abbrev main_c_29 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_30 : Ref sig .tc := ⟨.hbm, 158, rfl⟩
abbrev main_v112 : Ref sig .tc := ⟨.hbm, 159, rfl⟩
abbrev main_v113 : Ref sig .tc := ⟨.hbm, 160, rfl⟩
abbrev main_c_31 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_32 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_33 : Ref sig .tc := ⟨.hbm, 187, rfl⟩
abbrev main_v138 : Ref sig .tc := ⟨.hbm, 188, rfl⟩
abbrev main_v139 : Ref sig .tc := ⟨.hbm, 189, rfl⟩
abbrev main_cst_34 : Ref sig .tc := ⟨.hbm, 190, rfl⟩
abbrev main_v140 : Ref sig .tc := ⟨.hbm, 191, rfl⟩
abbrev main_v141 : Ref sig .tc := ⟨.hbm, 192, rfl⟩
abbrev main_cst_35 : Ref sig .tc := ⟨.hbm, 193, rfl⟩
abbrev main_v142 : Ref sig .tc := ⟨.hbm, 194, rfl⟩
abbrev main_v143 : Ref sig .tc := ⟨.hbm, 195, rfl⟩
abbrev main_cst_36 : Ref sig .tc := ⟨.hbm, 196, rfl⟩
abbrev main_v144 : Ref sig .tc := ⟨.hbm, 197, rfl⟩
abbrev main_v145 : Ref sig .tc := ⟨.hbm, 198, rfl⟩
abbrev main_cst_37 : Ref sig .tc := ⟨.hbm, 199, rfl⟩
abbrev main_v146 : Ref sig .tc := ⟨.hbm, 200, rfl⟩
abbrev main_v147 : Ref sig .tc := ⟨.hbm, 201, rfl⟩
abbrev main_cst_38 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_c_39 : Ref sig .tc := ⟨.hbm, 207, rfl⟩
abbrev main_c_40 : Ref sig .tc := ⟨.hbm, 208, rfl⟩
abbrev main_call2_v0 : Ref sig .tc := ⟨.hbm, 209, rfl⟩
abbrev main_call2_v1 : Ref sig .tc := ⟨.hbm, 210, rfl⟩
abbrev main_call2_v2 : Ref sig .tc := ⟨.hbm, 211, rfl⟩
abbrev main_call2_v3 : Ref sig .tc := ⟨.hbm, 212, rfl⟩
abbrev main_call2_v4 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_c_41 : Ref sig .tc := ⟨.hbm, 217, rfl⟩
abbrev main_c_42 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_call3_v3 : Ref sig .tc := ⟨.hbm, 222, rfl⟩
abbrev main_call3_v4 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_c_43 : Ref sig .tc := ⟨.hbm, 229, rfl⟩
abbrev main_v160 : Ref sig .tc := ⟨.hbm, 230, rfl⟩
abbrev main_v161 : Ref sig .tc := ⟨.hbm, 231, rfl⟩
abbrev main_c_44 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_c_45 : Ref sig .tc := ⟨.hbm, 236, rfl⟩
abbrev main_v165 : Ref sig .tc := ⟨.hbm, 237, rfl⟩
abbrev main_v166 : Ref sig .tc := ⟨.hbm, 238, rfl⟩
abbrev main_c_46 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_cst_47 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_c_48 : Ref sig .tc := ⟨.hbm, 253, rfl⟩
abbrev main_v179 : Ref sig .tc := ⟨.hbm, 254, rfl⟩
abbrev main_v180 : Ref sig .tc := ⟨.hbm, 255, rfl⟩
abbrev main_c_49 : Ref sig .tc := ⟨.hbm, 256, rfl⟩
abbrev main_v181 : Ref sig .tc := ⟨.hbm, 257, rfl⟩
abbrev main_v182 : Ref sig .tc := ⟨.hbm, 258, rfl⟩
abbrev main_c_50 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_c_51 : Ref sig .tc := ⟨.hbm, 263, rfl⟩
abbrev main_v186 : Ref sig .tc := ⟨.hbm, 264, rfl⟩
abbrev main_v187 : Ref sig .tc := ⟨.hbm, 265, rfl⟩
abbrev main_c_52 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_c_53 : Ref sig .tc := ⟨.hbm, 278, rfl⟩
abbrev main_v199 : Ref sig .tc := ⟨.hbm, 279, rfl⟩
abbrev main_v200 : Ref sig .tc := ⟨.hbm, 280, rfl⟩
abbrev main_c_54 : Ref sig .tc := ⟨.hbm, 281, rfl⟩
abbrev main_v201 : Ref sig .tc := ⟨.hbm, 282, rfl⟩
abbrev main_v202 : Ref sig .tc := ⟨.hbm, 283, rfl⟩
abbrev main_c_55 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_c_56 : Ref sig .tc := ⟨.hbm, 288, rfl⟩
abbrev main_v206 : Ref sig .tc := ⟨.hbm, 289, rfl⟩
abbrev main_v207 : Ref sig .tc := ⟨.hbm, 290, rfl⟩
abbrev main_c_57 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_cst_58 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_c_59 : Ref sig .tc := ⟨.hbm, 305, rfl⟩
abbrev main_v220 : Ref sig .tc := ⟨.hbm, 306, rfl⟩
abbrev main_v221 : Ref sig .tc := ⟨.hbm, 307, rfl⟩
abbrev main_c_60 : Ref sig .tc := ⟨.hbm, 308, rfl⟩
abbrev main_v222 : Ref sig .tc := ⟨.hbm, 309, rfl⟩
abbrev main_v223 : Ref sig .tc := ⟨.hbm, 310, rfl⟩
abbrev main_c_61 : Ref sig .tc := ⟨.hbm, 311, rfl⟩
abbrev main_v224 : Ref sig .tc := ⟨.hbm, 312, rfl⟩
abbrev main_v225 : Ref sig .tc := ⟨.hbm, 313, rfl⟩
abbrev main_c_62 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_c_63 : Ref sig .tc := ⟨.hbm, 318, rfl⟩
abbrev main_v229 : Ref sig .tc := ⟨.hbm, 319, rfl⟩
abbrev main_v230 : Ref sig .tc := ⟨.hbm, 320, rfl⟩
abbrev main_c_64 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩
abbrev main_v241 : Ref sig .tc := ⟨.hbm, 332, rfl⟩
abbrev main_cst_65 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_cst_66 : Ref sig .tc := ⟨.hbm, 346, rfl⟩
abbrev main_v254 : Ref sig .tc := ⟨.hbm, 347, rfl⟩
abbrev main_v255 : Ref sig .tc := ⟨.hbm, 348, rfl⟩
abbrev main_v256 : Ref sig .tc := ⟨.hbm, 349, rfl⟩
abbrev main_cst_67 : Ref sig .tc := ⟨.hbm, 350, rfl⟩
abbrev main_v257 : Ref sig .tc := ⟨.hbm, 351, rfl⟩
abbrev main_v258 : Ref sig .tc := ⟨.hbm, 352, rfl⟩
abbrev main_cst_68 : Ref sig .tc := ⟨.hbm, 353, rfl⟩
abbrev main_v259 : Ref sig .tc := ⟨.hbm, 354, rfl⟩
abbrev main_v260 : Ref sig .tc := ⟨.hbm, 355, rfl⟩

abbrev nD : Nat := 1
abbrev τ : Topo := Topo.v7x

variable {F : FTy → Type} [FloatOps F]

class Facts₀ : Prop where
  slices_S2x4_S1x4_0_0 : S2x4.Slices ![0, 0] S1x4
  shapeCasts_S1x4_S4 : S1x4.ShapeCasts S4
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  slices_S2x4_S1x4_1_0 : S2x4.Slices ![1, 0] S1x4
  bcast_S_S524288x4 : S_.BroadcastsInDim S524288x4 (![] : Fin 0 → Fin S524288x4.rank)
  slices_S524288x4_S524288x1_0_0 : S524288x4.Slices ![0, 0] S524288x1
  shapeCasts_S524288x1_S524288 : S524288x1.ShapeCasts S524288
  slices_S524288x4_S524288x1_0_1 : S524288x4.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S524288_S1x524288_1 : S524288.BroadcastsInDim S1x524288 (![1] : Fin 1 → Fin S1x524288.rank)
  bcast_S1x524288_S128x524288_0_1 : S1x524288.BroadcastsInDim S128x524288 (![0, 1] : Fin 2 → Fin S128x524288.rank)
  slices_S524288x4_S524288x1_0_2 : S524288x4.Slices ![0, 2] S524288x1
  slices_S524288x4_S524288x1_0_3 : S524288x4.Slices ![0, 3] S524288x1
  transposes_S128x524288_S524288x128_1_0 : S128x524288.Transposes [1, 0] S524288x128
  shapeCasts_S524288x128_S524288x16x8 : S524288x128.ShapeCasts S524288x16x8
  reducesTo_S524288x16x8_S524288x8_d1 : S524288x16x8.ReducesTo [1] S524288x8
  h_S_ : 0 < S_.numel
  bcast_S_S524288x8 : S_.BroadcastsInDim S524288x8 (![] : Fin 0 → Fin S524288x8.rank)
  gather_S128x512x512_S524288x2_S128x524288_0_12_n_n_12_1_12811_wf : GatherDims.WF S128x512x512 S524288x2 S128x524288 [0] [1, 2] [] [1, 2] [] 1 ![128, 1, 1]

variable [Facts₀]

def gather_S128x512x512_S524288x2_S128x524288_0_12_n_n_12_1_12811 : GatherDims S128x512x512 S524288x2 S128x524288 where
  offsetDims := [0]
  collapsedSliceDims := [1, 2]
  operandBatchingDims := []
  startIndicesBatchingDims := []
  startIndexMap := [1, 2]
  indexVectorDim := 1
  sliceSizes := ![128, 1, 1]
  wf := gather_S128x512x512_S524288x2_S128x524288_0_12_n_n_12_1_12811_wf

class Facts : Prop extends Facts₀ where

variable [Facts]
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.LibConcatPair.lean ====
/-
  A concatenation of two arrays is written over a list of (shape, array) pairs, where each array sits as the second
  component of a dependent pair. `pairCat` is the same concatenation with the two arrays as plain arguments, so that a
  rewrite of either array goes through like a rewrite of any operand.
-/
import Idealize.ShloMosaic.PureOps.ShapeOps

noncomputable section

namespace Idealize.ShloMosaic

variable {α : Type}

/-- The concatenation of two arrays along axis `a`. -/
def pairCat (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A concatenation of a two-element list is `pairCat` of its two arrays. -/
theorem concatenate_pair_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pairCat t a s₁ s₂ x₁ x₂ h := rfl

end Idealize.ShloMosaic

end
-- ==== Proof.SampleKernel.lean ====
/-
  The kernel's host code samples a stack of planes kept channel-last, `[512, 512, 128]`, at 524288 points: four corner
  gathers (`[524288, 128]`: point, channel) blended by the two fractional offsets of the point, each a vector over the
  points that is first made a column `[524288, 1]` and then spread over the 128 channels. These are that blend's
  operations as functions of the stack, the four arrays of corner pixels and the two offset vectors.
-/
import proofs.«130800_j2164663517945_2_alg».proof.KernelIdeal

noncomputable section

namespace Cert.KernelIdeal.Sample

open Cert.KernelIdeal Cert.KernelIdeal.Facts₀ Idealize.ShloMosaic

variable {F : FTy → Type} [FloatOps F] [Cert.KernelIdeal.Facts]

/-- The column of ones. -/
def one : FVec F S524288x1 .f32 :=
  broadcastInDim S524288x1 ![] bcast_S_S524288x1 (constant S_ .f32 0x3F800000#32)

/-- A vector over the points as a column. -/
def col (w : FVec F S524288 .f32) : FVec F S524288x1 .f32 :=
  broadcastInDim S524288x1 ![0] bcast_S524288_S524288x1_0 w

/-- A column spread over the channels. -/
def wide (w : FVec F S524288x1 .f32) : FVec F S524288x128 .f32 :=
  broadcastInDim S524288x128 ![0, 1] bcast_S524288x1_S524288x128_0_1 w

/-- One corner: the channel vectors of the pixels `px` names. -/
def corner (p : FVec F S512x512x128 .f32) (px : IVec S524288x2 32) : FVec F S524288x128 .f32 :=
  Host.gather gather_S512x512x128_S524288x2_S524288x128_1_01_n_n_01_1_11128 p px

/-- Two corners of one row of pixels, blended by the horizontal offset `wx`: `a · (1 − wx) + b · wx`. -/
def across (p : FVec F S512x512x128 .f32) (pa pb : IVec S524288x2 32) (wx : FVec F S524288 .f32) :
    FVec F S524288x128 .f32 :=
  addf (mulf (corner p pa) (wide (subf one (col wx)))) (mulf (corner p pb) (wide (col wx)))

/-- The bilinear sample: the upper and the lower pair blended by the vertical offset `wy`. -/
def blend (p : FVec F S512x512x128 .f32) (p00 p01 p10 p11 : IVec S524288x2 32) (wx wy : FVec F S524288 .f32) :
    FVec F S524288x128 .f32 :=
  addf (mulf (across p p00 p01 wx) (wide (subf one (col wy)))) (mulf (across p p10 p11 wx) (wide (col wy)))

/-- A stack given channel-first, laid channel-last. -/
def relaid (x : FVec F S128x512x512 .f32) : FVec F S512x512x128 .f32 :=
  transpose S512x512x128 [1, 2, 0] x transposes_S128x512x512_S512x512x128_1_2_0

end Cert.KernelIdeal.Sample

end
-- ==== Proof.SampleReference.lean ====
/-
  The reference samples a stack of planes kept channel-first, `[128, 512, 512]`, at 524288 points: four corner gathers
  (`[128, 524288]`: channel, point) blended by the two fractional offsets of the point, each a vector over the points
  that is first made a row `[1, 524288]` and then spread over the 128 channels. These are that blend's operations as
  functions of the stack, the four arrays of corner pixels and the two offset vectors.
-/
import proofs.«130800_j2164663517945_2_alg».proof.ReferenceIdeal

noncomputable section

namespace Cert.ReferenceIdeal.Sample

open Cert.ReferenceIdeal Cert.ReferenceIdeal.Facts₀ Idealize.ShloMosaic

variable {F : FTy → Type} [FloatOps F] [Cert.ReferenceIdeal.Facts]

/-- The vector of ones. -/
def one : FVec F S524288 .f32 :=
  broadcastInDim S524288 ![] bcast_S_S524288 (constant S_ .f32 0x3F800000#32)

/-- A vector over the points as a row. -/
def row (w : FVec F S524288 .f32) : FVec F S1x524288 .f32 :=
  broadcastInDim S1x524288 ![1] bcast_S524288_S1x524288_1 w

/-- A row spread over the channels. -/
def wide (w : FVec F S1x524288 .f32) : FVec F S128x524288 .f32 :=
  broadcastInDim S128x524288 ![0, 1] bcast_S1x524288_S128x524288_0_1 w

/-- One corner: the channel vectors of the pixels `px` names. -/
def corner (p : FVec F S128x512x512 .f32) (px : IVec S524288x2 32) : FVec F S128x524288 .f32 :=
  Host.gather gather_S128x512x512_S524288x2_S128x524288_0_12_n_n_12_1_12811 p px

/-- Two corners of one row of pixels, blended by the horizontal offset `wx`: `a · (1 − wx) + b · wx`. -/
def across (p : FVec F S128x512x512 .f32) (pa pb : IVec S524288x2 32) (wx : FVec F S524288 .f32) :
    FVec F S128x524288 .f32 :=
  addf (mulf (corner p pa) (wide (row (subf one wx)))) (mulf (corner p pb) (wide (row wx)))

/-- The bilinear sample: the upper and the lower pair blended by the vertical offset `wy`. -/
def blend (p : FVec F S128x512x512 .f32) (p00 p01 p10 p11 : IVec S524288x2 32) (wx wy : FVec F S524288 .f32) :
    FVec F S128x524288 .f32 :=
  addf (mulf (across p p00 p01 wx) (wide (row (subf one wy)))) (mulf (across p p10 p11 wx) (wide (row wy)))

end Cert.ReferenceIdeal.Sample

end
-- ==== Proof.LibPlaneGather.lean ====
/-
  A gather of single pixels' channel vectors out of a stack of image planes, read at an index, in the two layouts such
  a stack is kept in: channel-last `[H, W, C]` (the result `[N, C]`: point `n`, channel `c`) and channel-first
  `[C, H, W]` (the result `[C, N]`). The start indices are an integer array `[N, 2]`: row `n` holds the pixel's
  (row, column). Either gather reads the plane at the pixel whose coordinates are the two start-index components read as
  signed integers and clamped into the plane (`[0, H − 1]` and `[0, W − 1]`: a one-pixel slice), at channel `c`. So
  the channel-last gather of the transposed stack and the channel-first gather of the stack itself read the same element.
-/
import Idealize.ShloMosaic.Lib.ValueIdx

noncomputable section

namespace Idealize.ShloMosaic.PlaneGather

open Idealize.ShloMosaic Idealize.ShloMosaic.ValueIdx

variable {α : Type}

/-- The dimension numbers of `plane_hwc[y, x, :]`: operand `[H, W, C]`, start indices `[N, 2]`, result `[N, C]`. -/
abbrev lastDims (H W C N : Nat)
    (wf : GatherDims.WF ⟨3, ![H, W, C]⟩ ⟨2, ![N, 2]⟩ ⟨2, ![N, C]⟩ [1] [0, 1] [] [0, 1] [] 1 ![1, 1, C]) :
    GatherDims ⟨3, ![H, W, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

/-- The dimension numbers of `plane_chw[:, y, x]`: operand `[C, H, W]`, start indices `[N, 2]`, result `[C, N]`. -/
abbrev firstDims (H W C N : Nat)
    (wf : GatherDims.WF ⟨3, ![C, H, W]⟩ ⟨2, ![N, 2]⟩ ⟨2, ![C, N]⟩ [0] [1, 2] [] [1, 2] [] 1 ![C, 1, 1]) :
    GatherDims ⟨3, ![C, H, W]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- A start-index component read signed and clamped into `[0, n − 1]`. -/
def clampTo {w : Nat} (n : Nat) (hn : 0 < n) (v : BitVec w) : Fin n := ⟨min v.toInt.toNat (n - 1), by omega⟩

theorem mem01_0 : (0 : Fin 3) ∈ ([0, 1] : List (Fin 3)) := by decide
theorem mem01_1 : (1 : Fin 3) ∈ ([0, 1] : List (Fin 3)) := by decide
theorem mem01_2 : (2 : Fin 3) ∉ ([0, 1] : List (Fin 3)) := by decide
theorem mem12_0 : (0 : Fin 3) ∉ ([1, 2] : List (Fin 3)) := by decide
theorem mem12_1 : (1 : Fin 3) ∈ ([1, 2] : List (Fin 3)) := by decide
theorem mem12_2 : (2 : Fin 3) ∈ ([1, 2] : List (Fin 3)) := by decide

section Last
variable {H W C N w : Nat} (hH : 0 < H) (hW : 0 < W)
  (wf : GatherDims.WF ⟨3, ![H, W, C]⟩ ⟨2, ![N, 2]⟩ ⟨2, ![N, C]⟩ [1] [0, 1] [] [0, 1] [] 1 ![1, 1, C])
  (idx : IVec ⟨2, ![N, 2]⟩ w) (n : Fin N) (c : Fin C)

/-- The operand's row: the first start-index component, clamped. -/
theorem last_coord0 :
    (lastDims H W C N wf).start (ix2 n c) idx 0 + (lastDims H W C N wf).batchCoord (ix2 n c) 0
      + (lastDims H W C N wf).offCoord (ix2 n c) 0 = min (idx (ix2 n 0)).toInt.toNat (H - 1) := by
  rw [GatherDims.batchCoord_eq_zero _ _ _ List.not_mem_nil, Nat.add_zero,
    GatherDims.offCoord_eq_zero _ _ _ (fun h => ((GatherDims.mem_sKept _ _).mp h).1 mem01_0), Nat.add_zero]
  unfold GatherDims.start
  rw [dif_pos (show (0 : Fin 3) ∈ (lastDims H W C N wf).startIndexMap from mem01_0)]
  have hsi : (lastDims H W C N wf).siIdx (ix2 n c) ⟨List.idxOf (0 : Fin 3) (lastDims H W C N wf).startIndexMap,
      List.idxOf_lt_length_iff.2 mem01_0⟩ = ix2 n 0 := by
    funext b; refine Fin.ext ?_
    match b with
    | ⟨0, _⟩ => rfl
    | ⟨1, _⟩ => rfl
  rw [hsi]
  rfl

/-- The operand's column: the second start-index component, clamped. -/
theorem last_coord1 :
    (lastDims H W C N wf).start (ix2 n c) idx 1 + (lastDims H W C N wf).batchCoord (ix2 n c) 1
      + (lastDims H W C N wf).offCoord (ix2 n c) 1 = min (idx (ix2 n 1)).toInt.toNat (W - 1) := by
  rw [GatherDims.batchCoord_eq_zero _ _ _ List.not_mem_nil, Nat.add_zero,
    GatherDims.offCoord_eq_zero _ _ _ (fun h => ((GatherDims.mem_sKept _ _).mp h).1 mem01_1), Nat.add_zero]
  unfold GatherDims.start
  rw [dif_pos (show (1 : Fin 3) ∈ (lastDims H W C N wf).startIndexMap from mem01_1)]
  have hsi : (lastDims H W C N wf).siIdx (ix2 n c) ⟨List.idxOf (1 : Fin 3) (lastDims H W C N wf).startIndexMap,
      List.idxOf_lt_length_iff.2 mem01_1⟩ = ix2 n 1 := by
    funext b; refine Fin.ext ?_
    match b with
    | ⟨0, _⟩ => rfl
    | ⟨1, _⟩ => rfl
  rw [hsi]
  rfl

/-- The operand's channel: the result's offset coordinate. -/
theorem last_coord2 :
    (lastDims H W C N wf).start (ix2 n c) idx 2 + (lastDims H W C N wf).batchCoord (ix2 n c) 2
      + (lastDims H W C N wf).offCoord (ix2 n c) 2 = c.val := by
  rw [GatherDims.batchCoord_eq_zero _ _ _ List.not_mem_nil, Nat.add_zero]
  unfold GatherDims.start
  rw [dif_neg (show (2 : Fin 3) ∉ (lastDims H W C N wf).startIndexMap from mem01_2), Nat.zero_add]
  unfold GatherDims.offCoord
  rw [dif_pos (show (2 : Fin 3) ∈ (lastDims H W C N wf).sKept from
    (GatherDims.mem_sKept _ _).mpr ⟨mem01_2, List.not_mem_nil⟩)]
  rfl

/-- THE CHANNEL-LAST GATHER at (point `n`, channel `c`): the stack at the clamped pixel, channel `c`. -/
theorem gather_last_apply (x : (⟨3, ![H, W, C]⟩ : Shape).Idx → α) :
    Host.gather (lastDims H W C N wf) x idx (ix2 n c)
      = x (ix3 (clampTo H hH (idx (ix2 n 0))) (clampTo W hW (idx (ix2 n 1))) c) := by
  unfold Host.gather
  congr 1
  funext a
  refine Fin.ext ?_
  match a with
  | ⟨0, _⟩ => exact last_coord0 wf idx n c
  | ⟨1, _⟩ => exact last_coord1 wf idx n c
  | ⟨2, _⟩ => exact last_coord2 wf idx n c

end Last

section First
variable {H W C N w : Nat} (hH : 0 < H) (hW : 0 < W)
  (wf : GatherDims.WF ⟨3, ![C, H, W]⟩ ⟨2, ![N, 2]⟩ ⟨2, ![C, N]⟩ [0] [1, 2] [] [1, 2] [] 1 ![C, 1, 1])
  (idx : IVec ⟨2, ![N, 2]⟩ w) (n : Fin N) (c : Fin C)

/-- The operand's channel: the result's offset coordinate. -/
theorem first_coord0 :
    (firstDims H W C N wf).start (ix2 c n) idx 0 + (firstDims H W C N wf).batchCoord (ix2 c n) 0
      + (firstDims H W C N wf).offCoord (ix2 c n) 0 = c.val := by
  rw [GatherDims.batchCoord_eq_zero _ _ _ List.not_mem_nil, Nat.add_zero]
  unfold GatherDims.start
  rw [dif_neg (show (0 : Fin 3) ∉ (firstDims H W C N wf).startIndexMap from mem12_0), Nat.zero_add]
  unfold GatherDims.offCoord
  rw [dif_pos (show (0 : Fin 3) ∈ (firstDims H W C N wf).sKept from
    (GatherDims.mem_sKept _ _).mpr ⟨mem12_0, List.not_mem_nil⟩)]
  rfl

/-- The operand's row: the first start-index component, clamped. -/
theorem first_coord1 :
    (firstDims H W C N wf).start (ix2 c n) idx 1 + (firstDims H W C N wf).batchCoord (ix2 c n) 1
      + (firstDims H W C N wf).offCoord (ix2 c n) 1 = min (idx (ix2 n 0)).toInt.toNat (H - 1) := by
  rw [GatherDims.batchCoord_eq_zero _ _ _ List.not_mem_nil, Nat.add_zero,
    GatherDims.offCoord_eq_zero _ _ _ (fun h => ((GatherDims.mem_sKept _ _).mp h).1 mem12_1), Nat.add_zero]
  unfold GatherDims.start
  rw [dif_pos (show (1 : Fin 3) ∈ (firstDims H W C N wf).startIndexMap from mem12_1)]
  have hsi : (firstDims H W C N wf).siIdx (ix2 c n) ⟨List.idxOf (1 : Fin 3) (firstDims H W C N wf).startIndexMap,
      List.idxOf_lt_length_iff.2 mem12_1⟩ = ix2 n 0 := by
    funext b; refine Fin.ext ?_
    match b with
    | ⟨0, _⟩ => rfl
    | ⟨1, _⟩ => rfl
  rw [hsi]
  rfl

/-- The operand's column: the second start-index component, clamped. -/
theorem first_coord2 :
    (firstDims H W C N wf).start (ix2 c n) idx 2 + (firstDims H W C N wf).batchCoord (ix2 c n) 2
      + (firstDims H W C N wf).offCoord (ix2 c n) 2 = min (idx (ix2 n 1)).toInt.toNat (W - 1) := by
  rw [GatherDims.batchCoord_eq_zero _ _ _ List.not_mem_nil, Nat.add_zero,
    GatherDims.offCoord_eq_zero _ _ _ (fun h => ((GatherDims.mem_sKept _ _).mp h).1 mem12_2), Nat.add_zero]
  unfold GatherDims.start
  rw [dif_pos (show (2 : Fin 3) ∈ (firstDims H W C N wf).startIndexMap from mem12_2)]
  have hsi : (firstDims H W C N wf).siIdx (ix2 c n) ⟨List.idxOf (2 : Fin 3) (firstDims H W C N wf).startIndexMap,
      List.idxOf_lt_length_iff.2 mem12_2⟩ = ix2 n 1 := by
    funext b; refine Fin.ext ?_
    match b with
    | ⟨0, _⟩ => rfl
    | ⟨1, _⟩ => rfl
  rw [hsi]
  rfl

/-- THE CHANNEL-FIRST GATHER at (channel `c`, point `n`): the stack at channel `c`, the clamped pixel. -/
theorem gather_first_apply (x : (⟨3, ![C, H, W]⟩ : Shape).Idx → α) :
    Host.gather (firstDims H W C N wf) x idx (ix2 c n)
      = x (ix3 c (clampTo H hH (idx (ix2 n 0))) (clampTo W hW (idx (ix2 n 1)))) := by
  unfold Host.gather
  congr 1
  funext a
  refine Fin.ext ?_
  match a with
  | ⟨0, _⟩ => exact first_coord0 wf idx n c
  | ⟨1, _⟩ => exact first_coord1 wf idx n c
  | ⟨2, _⟩ => exact first_coord2 wf idx n c

end First

end Idealize.ShloMosaic.PlaneGather

end
-- ==== Proof.SampleBridge.lean ====
/-
  The two bilinear samples read at one element agree: at point `n` and channel `c` the kernel's host code, sampling the
  stack laid channel-last, and the reference, sampling the stack as given, both compute

    (x[c, y₀, x₀] · (1 − wx n) + x[c, y₀, x₁] · wx n) · (1 − wy n) + (x[c, y₁, x₀] · (1 − wx n) + x[c, y₁, x₁] · wx n) · wy n

  on the extended reals, the same sums and products in the same order, where the pixels are the start indices clamped
  into the plane. Each corner by the gather read at an index (the channel-last gather of the re-laid stack reads the
  stack at the same element as the channel-first gather); each weight by its two broadcasts read at an index.
-/
import proofs.«130800_j2164663517945_2_alg».proof.Proof.SampleKernel
import proofs.«130800_j2164663517945_2_alg».proof.Proof.SampleReference
import proofs.«130800_j2164663517945_2_alg».proof.Proof.LibPlaneGather
import Idealize.ShloMosaic.Lib.Pipeline.Value
import Idealize.ShloMosaic.Lib.ValueIdx

noncomputable section

namespace Cert.Bridge

open Idealize.ShloMosaic Idealize.ShloMosaic.ValueIdx Idealize.ShloMosaic.PlaneGather

variable [Cert.KernelIdeal.Facts] [Cert.ReferenceIdeal.Facts]

/-- The pixel a row of start indices names, on one axis of a 512 × 512 plane. -/
abbrev pix (v : BitVec 32) : Fin 512 := clampTo 512 (by decide) v

/-! ## The kernel's side -/

section Kernel
open Cert.KernelIdeal Cert.KernelIdeal.Facts₀ Cert.KernelIdeal.Sample

theorem k_relaid_apply {F : FTy → Type} [FloatOps F] (x : FVec F S128x512x512 .f32) (a b : Fin 512) (c : Fin 128) :
    relaid x (ix3 a b c) = x (ix3 c a b) := by
  unfold relaid
  exact transpose_apply [1, 2, 0] x transposes_S128x512x512_S512x512x128_1_2_0 (ix3 a b c) (ix3 c a b) (fun d => match d with
    | ⟨0, _⟩ => rfl
    | ⟨1, _⟩ => rfl
    | ⟨2, _⟩ => rfl)

theorem k_corner_apply {F : FTy → Type} [FloatOps F] (p : FVec F S512x512x128 .f32) (px : IVec S524288x2 32) (n : Fin 524288) (c : Fin 128) :
    corner p px (ix2 n c) = p (ix3 (pix (px (ix2 n 0))) (pix (px (ix2 n 1))) c) := by
  unfold corner
  exact gather_last_apply (by decide) (by decide) gather_S512x512x128_S524288x2_S524288x128_1_01_n_n_01_1_11128_wf px n c p

theorem k_col_apply {F : FTy → Type} [FloatOps F] (w : FVec F S524288 .f32) (n : Fin 524288) (u : Fin 1) :
    col w (ix2 n u) = w (ix1 n) := by
  unfold col
  exact broadcastInDim_apply _ bcast_S524288_S524288x1_0 w (ix2 n u) (ix1 n) (fun a => match a with
    | ⟨0, _⟩ => by show n.val = if (524288 : Nat) = 1 then 0 else n.val; rw [if_neg (by decide)])

theorem k_wide_apply {F : FTy → Type} [FloatOps F] (w : FVec F S524288x1 .f32) (n : Fin 524288) (c : Fin 128) :
    wide w (ix2 n c) = w (ix2 n 0) := by
  unfold wide
  exact broadcastInDim_apply _ bcast_S524288x1_S524288x128_0_1 w (ix2 n c) (ix2 n 0) (fun a => match a with
    | ⟨0, _⟩ => by show n.val = if (524288 : Nat) = 1 then 0 else n.val; rw [if_neg (by decide)]
    | ⟨1, _⟩ => by show 0 = if (1 : Nat) = 1 then 0 else c.val; rw [if_pos rfl])

theorem k_one_apply {F : FTy → Type} [FloatOps F] (i : S524288x1.Idx) :
    one (F := F) i = FloatOps.ofBits .f32 0x3F800000#32 := by
  unfold one
  exact broadcastInDim_apply _ bcast_S_S524288x1 (constant S_ .f32 0x3F800000#32) i ix0 (fun a => a.elim0)

/-- Two corners blended, at an element. -/
theorem k_across_apply (x : FVec Ideal S128x512x512 .f32) (pa pb : IVec S524288x2 32) (wx : FVec Ideal S524288 .f32)
    (n : Fin 524288) (c : Fin 128) :
    across (relaid x) pa pb wx (ix2 n c)
      = x (ix3 c (pix (pa (ix2 n 0))) (pix (pa (ix2 n 1)))) * (Ideal.ofBits .f32 0x3F800000#32 - wx (ix1 n))
        + x (ix3 c (pix (pb (ix2 n 0))) (pix (pb (ix2 n 1)))) * wx (ix1 n) := by
  unfold across
  rw [addf_apply, mulf_apply, mulf_apply, k_corner_apply, k_corner_apply, k_relaid_apply, k_relaid_apply, k_wide_apply, k_wide_apply,
    subf_apply, k_one_apply, k_col_apply]
  rfl

/-- The kernel's sample at an element. -/
theorem k_blend_apply (x : FVec Ideal S128x512x512 .f32) (p00 p01 p10 p11 : IVec S524288x2 32) (wx wy : FVec Ideal S524288 .f32)
    (n : Fin 524288) (c : Fin 128) :
    blend (relaid x) p00 p01 p10 p11 wx wy (ix2 n c)
      = (x (ix3 c (pix (p00 (ix2 n 0))) (pix (p00 (ix2 n 1)))) * (Ideal.ofBits .f32 0x3F800000#32 - wx (ix1 n))
          + x (ix3 c (pix (p01 (ix2 n 0))) (pix (p01 (ix2 n 1)))) * wx (ix1 n)) * (Ideal.ofBits .f32 0x3F800000#32 - wy (ix1 n))
        + (x (ix3 c (pix (p10 (ix2 n 0))) (pix (p10 (ix2 n 1)))) * (Ideal.ofBits .f32 0x3F800000#32 - wx (ix1 n))
          + x (ix3 c (pix (p11 (ix2 n 0))) (pix (p11 (ix2 n 1)))) * wx (ix1 n)) * wy (ix1 n) := by
  unfold blend
  rw [addf_apply, mulf_apply, mulf_apply, k_across_apply, k_across_apply, k_wide_apply, k_wide_apply, subf_apply, k_one_apply, k_col_apply]
  rfl

end Kernel

/-! ## The reference's side -/

section Reference
open Cert.ReferenceIdeal Cert.ReferenceIdeal.Facts₀ Cert.ReferenceIdeal.Sample

theorem r_corner_apply {F : FTy → Type} [FloatOps F] (p : FVec F S128x512x512 .f32) (px : IVec S524288x2 32) (n : Fin 524288) (c : Fin 128) :
    corner p px (ix2 c n) = p (ix3 c (pix (px (ix2 n 0))) (pix (px (ix2 n 1)))) := by
  unfold corner
  exact gather_first_apply (by decide) (by decide) gather_S128x512x512_S524288x2_S128x524288_0_12_n_n_12_1_12811_wf px n c p

theorem r_row_apply {F : FTy → Type} [FloatOps F] (w : FVec F S524288 .f32) (u : Fin 1) (n : Fin 524288) :
    row w (ix2 u n) = w (ix1 n) := by
  unfold row
  exact broadcastInDim_apply _ bcast_S524288_S1x524288_1 w (ix2 u n) (ix1 n) (fun a => match a with
    | ⟨0, _⟩ => by show n.val = if (524288 : Nat) = 1 then 0 else n.val; rw [if_neg (by decide)])

theorem r_wide_apply {F : FTy → Type} [FloatOps F] (w : FVec F S1x524288 .f32) (c : Fin 128) (n : Fin 524288) :
    wide w (ix2 c n) = w (ix2 0 n) := by
  unfold wide
  exact broadcastInDim_apply _ bcast_S1x524288_S128x524288_0_1 w (ix2 c n) (ix2 0 n) (fun a => match a with
    | ⟨0, _⟩ => by show 0 = if (1 : Nat) = 1 then 0 else c.val; rw [if_pos rfl]
    | ⟨1, _⟩ => by show n.val = if (524288 : Nat) = 1 then 0 else n.val; rw [if_neg (by decide)])

theorem r_one_apply {F : FTy → Type} [FloatOps F] (i : S524288.Idx) :
    one (F := F) i = FloatOps.ofBits .f32 0x3F800000#32 := by
  unfold one
  exact broadcastInDim_apply _ bcast_S_S524288 (constant S_ .f32 0x3F800000#32) i ix0 (fun a => a.elim0)

/-- Two corners blended, at an element. -/
theorem r_across_apply (x : FVec Ideal S128x512x512 .f32) (pa pb : IVec S524288x2 32) (wx : FVec Ideal S524288 .f32)
    (n : Fin 524288) (c : Fin 128) :
    across x pa pb wx (ix2 c n)
      = x (ix3 c (pix (pa (ix2 n 0))) (pix (pa (ix2 n 1)))) * (Ideal.ofBits .f32 0x3F800000#32 - wx (ix1 n))
        + x (ix3 c (pix (pb (ix2 n 0))) (pix (pb (ix2 n 1)))) * wx (ix1 n) := by
  unfold across
  rw [addf_apply, mulf_apply, mulf_apply, r_corner_apply, r_corner_apply, r_wide_apply, r_wide_apply, r_row_apply, r_row_apply,
    subf_apply, r_one_apply]
  rfl

/-- The reference's sample at an element. -/
theorem r_blend_apply (x : FVec Ideal S128x512x512 .f32) (p00 p01 p10 p11 : IVec S524288x2 32) (wx wy : FVec Ideal S524288 .f32)
    (n : Fin 524288) (c : Fin 128) :
    blend x p00 p01 p10 p11 wx wy (ix2 c n)
      = (x (ix3 c (pix (p00 (ix2 n 0))) (pix (p00 (ix2 n 1)))) * (Ideal.ofBits .f32 0x3F800000#32 - wx (ix1 n))
          + x (ix3 c (pix (p01 (ix2 n 0))) (pix (p01 (ix2 n 1)))) * wx (ix1 n)) * (Ideal.ofBits .f32 0x3F800000#32 - wy (ix1 n))
        + (x (ix3 c (pix (p10 (ix2 n 0))) (pix (p10 (ix2 n 1)))) * (Ideal.ofBits .f32 0x3F800000#32 - wx (ix1 n))
          + x (ix3 c (pix (p11 (ix2 n 0))) (pix (p11 (ix2 n 1)))) * wx (ix1 n)) * wy (ix1 n) := by
  unfold blend
  rw [addf_apply, mulf_apply, mulf_apply, r_across_apply, r_across_apply, r_wide_apply, r_wide_apply, r_row_apply, r_row_apply,
    subf_apply, r_one_apply]
  rfl

end Reference

/-- THE TWO SAMPLES AGREE, element by element: the kernel's at (point, channel), the reference's at (channel, point). -/
theorem blend_eq (x : FVec Ideal Cert.KernelIdeal.S128x512x512 .f32) (p00 p01 p10 p11 : IVec Cert.KernelIdeal.S524288x2 32)
    (wx wy : FVec Ideal Cert.KernelIdeal.S524288 .f32) (n : Fin 524288) (c : Fin 128) :
    Cert.KernelIdeal.Sample.blend (Cert.KernelIdeal.Sample.relaid x) p00 p01 p10 p11 wx wy (ix2 n c)
      = Cert.ReferenceIdeal.Sample.blend x p00 p01 p10 p11 wx wy (ix2 c n) :=
  (k_blend_apply x p00 p01 p10 p11 wx wy n c).trans (r_blend_apply x p00 p01 p10 p11 wx wy n c).symm

end Cert.Bridge

end
-- ==== Proof.KernelFeatures.lean ====
/-
  What the kernel's host code hands the pallas_call: the array `[524288, 128]` of products of two bilinear samples, one
  of each stack of planes laid channel-last, at the corner pixels and fractional offsets computed from the points and
  the bounds. Those one-axis computations (normalize, scale to pixel units, floor, clip, wrap a negative index, the
  offsets) are operation for operation the reference's, so they are named here by the reference's own stages: only the
  layout of the stacks, of the gathers and of the weights' broadcasts differs, and that difference is `Sample.blend`.
-/
import proofs.«130800_j2164663517945_2_alg».proof.Proof.Gen.KernelIdeal.Frame
import proofs.«130800_j2164663517945_2_alg».proof.Proof.ReferenceRead
import proofs.«130800_j2164663517945_2_alg».proof.Proof.SampleKernel
import proofs.«130800_j2164663517945_2_alg».proof.Proof.LibTypedRefs
import proofs.«130800_j2164663517945_2_alg».proof.Proof.LibConcatPair
import Idealize.ShloMosaic.Lib.StableHlo.Run

set_option maxRecDepth 16384

noncomputable section

namespace Cert.KernelIdeal.Features

open Cert.KernelIdeal Cert.KernelIdeal.Gen Idealize.ShloMosaic Idealize.ShloMosaic.TcCoe Idealize.SL.Sem
open Idealize.ShloMosaic.StableHlo

variable {F : FTy → Type} [FloatOps F]

/-- The features as one function of the argument arrays: the product of the two samples. -/
def feat (x0 : FVec F S524288x4 .f32) (x1 x2 : FVec F S128x512x512 .f32) (x3 : FVec F S2x4 .f32) : FVec F S524288x128 .f32 :=
  mulf
    (Sample.blend (Sample.relaid x1)
      (Cert.ReferenceIdeal.ReadP.val_main_v55 x0 x3) (Cert.ReferenceIdeal.ReadP.val_main_v76 x0 x3)
      (Cert.ReferenceIdeal.ReadP.val_main_v96 x0 x3) (Cert.ReferenceIdeal.ReadP.val_main_v119 x0 x3)
      (Cert.ReferenceIdeal.ReadP.val_main_v40 x0 x3) (Cert.ReferenceIdeal.ReadP.val_main_v42 x0 x3))
    (Sample.blend (Sample.relaid x2)
      (Cert.ReferenceIdeal.ReadP.val_main_v172 x0 x3) (Cert.ReferenceIdeal.ReadP.val_main_v193 x0 x3)
      (Cert.ReferenceIdeal.ReadP.val_main_v213 x0 x3) (Cert.ReferenceIdeal.ReadP.val_main_v236 x0 x3)
      (Cert.ReferenceIdeal.ReadP.val_main_v157 x0 x3) (Cert.ReferenceIdeal.ReadP.val_main_v159 x0 x3))

set_option maxHeartbeats 400000000 in
/-- The array the region's input window stages is `feat` of the argument arrays as launched. -/
theorem staged_eq (m : (ℓ : Loc nD τ sig) → Buf (Elt F) ℓ) (c : Dev nD) :
    V m c main_v245 = feat (m ((c : Thread nD τ).loc main_arg0)) (m ((c : Thread nD τ).loc main_arg1))
      (m ((c : Thread nD τ).loc main_arg2)) (m ((c : Thread nD τ).loc main_arg3)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append, concatenate_pair_eq]
  after_results_simp
  simp only [TRef.ofBuf_toBuf]
  rfl

end Cert.KernelIdeal.Features

end
-- ==== Proof.LibFoldSum.lean ====
/-
  A sum over sixteen indices, in any commutative additive monoid, is the sixteen terms added one after the other from
  the left — the order in which a loop `acc = acc + x[i]` unrolled sixteen times adds them.
-/
import Mathlib.Algebra.BigOperators.Fin

open scoped BigOperators

namespace Idealize.ShloMosaic.FoldSum

/-- `∑ k : Fin 16, f k = ((f 0 + f 1) + f 2) + … + f 15`. -/
theorem sum16 {M : Type*} [AddCommMonoid M] (f : Fin 16 → M) :
    ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

end Idealize.ShloMosaic.FoldSum
-- ==== Proof.KernelResult.lean ====
/-
  What the kernel's run leaves in its result array. At each of the 64 grid points the body loads a block of 8192 rows of
  the staged features `[524288, 128]`, adds its sixteen 8-lane slices one after the other and applies the logistic
  function: at row `r` and lane `o` of the block that is the logistic function of the sum over the sixteen components `k`
  of the block at (r, o + 8·k) — a sum of sixteen terms in any order is the sum (the extended reals are a commutative
  monoid under +). Point `t`'s input and output blocks are rows `8192·t …` of their arrays, so what point `t` writes back
  is block `t` of ONE function `G` of the staged array, and the 64 blocks cover the result array: it ends holding `G`.
-/
import proofs.«130800_j2164663517945_2_alg».proof.Proof.KernelValue
import proofs.«130800_j2164663517945_2_alg».proof.Proof.LibFoldSum
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen Cert.KernelIdeal.ValueP Idealize.ShloMosaic Idealize.ShloMosaic.TcCoe Idealize.SL.Sem
open Idealize.ShloMosaic.Pipeline (Dat)
open Idealize.ShloMosaic.ValueIdx Idealize.ShloMosaic.FoldSum

/-- The result as one function of the staged features: at (point, output) the logistic function of the sum of the
    sixteen components. -/
def G (feat : S524288x128.Idx → EReal) : S524288x8.Idx → EReal := fun i =>
  Ideal.logistic (∑ k : Fin 16, feat (ix2 ⟨(i 0).val, idx2_lt0 i⟩ ⟨(i 1).val + 8 * k.val, by have := idx2_lt1 i; omega⟩))

/-- An index of the input block with the row of `y` and the lane of `y` moved `k` components along. -/
theorem at_component (y : S8192x8.Idx) (k : Nat) (hk : k < 16) (i : S8192x128.Idx)
    (h0 : (i 0).val = (y 0).val) (h1 : (i 1).val = (y 1).val + 8 * k) :
    i = ix2 ⟨(y 0).val, idx2_lt0 y⟩ ⟨(y 1).val + 8 * k, by have := idx2_lt1 y; omega⟩ := by
  funext a
  refine Fin.ext ?_
  match a with
  | ⟨0, _⟩ => exact h0
  | ⟨1, _⟩ => exact h1

/-- The body's block at an element: the logistic function of the sum of the sixteen components of the loaded block. -/
theorem body_apply (P0 : Vec Ideal S8192x128 .f32) (y : S8192x8.Idx) :
    E1 (F := Ideal) P0 y
      = Ideal.logistic (∑ k : Fin 16, (P0 (ix2 ⟨(y 0).val, idx2_lt0 y⟩ ⟨(y 1).val + 8 * k.val, by have := idx2_lt1 y; omega⟩) : EReal)) := by
  rw [sum16]
  have e0 := at_component y 0 (by omega) (ix1_0 y) rfl rfl
  have e1 := at_component y 1 (by omega) (ix1_1 y) rfl rfl
  have e2 := at_component y 2 (by omega) (ix1_2 y) rfl rfl
  have e3 := at_component y 3 (by omega) (ix1_3 y) rfl rfl
  have e4 := at_component y 4 (by omega) (ix1_4 y) rfl rfl
  have e5 := at_component y 5 (by omega) (ix1_5 y) rfl rfl
  have e6 := at_component y 6 (by omega) (ix1_6 y) rfl rfl
  have e7 := at_component y 7 (by omega) (ix1_7 y) rfl rfl
  have e8 := at_component y 8 (by omega) (ix1_8 y) rfl rfl
  have e9 := at_component y 9 (by omega) (ix1_9 y) rfl rfl
  have e10 := at_component y 10 (by omega) (ix1_10 y) rfl rfl
  have e11 := at_component y 11 (by omega) (ix1_11 y) rfl rfl
  have e12 := at_component y 12 (by omega) (ix1_12 y) rfl rfl
  have e13 := at_component y 13 (by omega) (ix1_13 y) rfl rfl
  have e14 := at_component y 14 (by omega) (ix1_14 y) rfl rfl
  have e15 := at_component y 15 (by omega) (ix1_15 y) rfl rfl
  exact congrArg Ideal.logistic (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg P0 e0) (congrArg P0 e1)) (congrArg P0 e2)) (congrArg P0 e3)) (congrArg P0 e4)) (congrArg P0 e5)) (congrArg P0 e6)) (congrArg P0 e7)) (congrArg P0 e8)) (congrArg P0 e9)) (congrArg P0 e10)) (congrArg P0 e11)) (congrArg P0 e12)) (congrArg P0 e13)) (congrArg P0 e14)) (congrArg P0 e15))

theorem hz : (![0, 0] : Fin 2 → Nat) = fun _ => 0 := funext fun a => by fin_cases a <;> rfl

/-- The printed index maps over the grid: the input and the output window move together along the points, and neither
    moves along the lanes. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) < 64 :=
  (by decide +kernel : ∀ t : Fin grid0.N, _)

/-- Every block of rows is some point's. -/
theorem idx_onto : ∀ q : Fin 64, ∃ t : Fin cfg0.N, win0_1.index t (0 : Fin 2) = q.val :=
  (by decide +kernel : ∀ q : Fin 64, ∃ t : Fin grid0.N, win0_1.index t (0 : Fin 2) = q.val)

variable (m : (ℓ : Loc nD τ sig) → Buf (Elt Ideal) ℓ) (ρ : Dev nD → PrngReg)

/-- WHAT POINT `t` WRITES BACK is block `t` of `G` of the staged features. -/
theorem flushed_eq (c : Dev nD) (t : Fin cfg0.N) :
    (dats m 0 c).flushed 1 t = ((cfg0.win 1).blk t).view.read (Elt Ideal) (G (V m c main_v245)) := by
  rw [flushed1]
  unfold out0_1
  obtain ⟨e0, e1, e2, -⟩ := idx_facts t
  funext j
  show (View.canon [⟨r0_1, k0_pay1 (F := Ideal) (View.ld (iblk m c 0 t) r0_0)⟩] : Vec Ideal S8192x8 .f32) j = _
  rw [canon1_eq, View.ld_unit_zero (S := S8192x128) hz, body_apply, View.read_apply]
  unfold G
  refine congrArg Ideal.logistic (Finset.sum_congr rfl fun k _ => ?_)
  unfold iblk
  rw [View.read_apply]
  generalize V m c = A
  show A main_v245 _ = A main_v245 _
  refine congrArg _ (funext fun a => Fin.ext ?_)
  have hj0 : (j 0).val < 8192 := (j 0).isLt
  have hj1 : (j 1).val < 8 := (j 1).isLt
  match a with
  | ⟨0, _⟩ => show win0_0.index t (0 : Fin 2) * 8192 + 1 * (j 0).val = win0_1.index t (0 : Fin 2) * 8192 + 1 * (j 0).val; omega
  | ⟨1, _⟩ => show win0_0.index t (1 : Fin 2) * 128 + 1 * ((j 1).val + 8 * k.val) = win0_1.index t (1 : Fin 2) * 8 + 1 * (j 1).val + 8 * k.val; omega

/-- An index of the result array is in point `t`'s block iff each coordinate is in the block's range on its axis. -/
theorem mem_blk (t : Fin cfg0.N) (i : S524288x8.Idx) :
    i ∈ ((cfg0.win 1).blk t).view.set ↔ ∀ a : Fin 2, win0_1.index t a * S8192x8.size a ≤ (i a).val ∧ (i a).val < win0_1.index t a * S8192x8.size a + S8192x8.size a := by
  show i ∈ ((View.whole main_v246).slice (win0_1.rect t)).set ↔ _
  rw [View.set_slice_whole, Rect.mem_set_unit]
  exact Iff.rfl

/-- The 64 blocks of 8192 rows cover the result array: row `r` is in the block of the point whose block index is `r / 8192`. -/
theorem cover (i : S524288x8.Idx) : ∃ t : Fin cfg0.N, (cfg0.win 1).flush t = true ∧ i ∈ ((cfg0.win 1).blk t).view.set := by
  have hi0 : (i 0).val < 524288 := (i 0).isLt
  have hi1 : (i 1).val < 8 := (i 1).isLt
  obtain ⟨t, ht⟩ := idx_onto ⟨(i 0).val / 8192, by omega⟩
  obtain ⟨-, -, e2, -⟩ := idx_facts t
  have q0 : win0_1.index t (0 : Fin 2) = (i 0).val / 8192 := ht
  refine ⟨t, flush0_1 t, ?_⟩
  rw [mem_blk]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 8 ≤ (i 1).val ∧ (i 1).val < win0_1.index t (1 : Fin 2) * 8 + 8; omega

/-- THE RESULT ARRAY after the run is `G` of the staged features. -/
theorem final (c : Dev nD) : (dats m 0 c).arrAt 1 cfg0.N = G (V m c main_v245) :=
  (dats m 0 c).arrAt_eq_of_cover 1 (G (V m c main_v245)) (fun t _ => flushed_eq m c t) cover

/-- The kernel's run, read: the result array at `G` of the staged features, the arguments unchanged. -/
theorem run : θ_run defs (onTc (τ := τ) (main (F := Ideal))) ⟨m, fun _ => 0, ρ⟩ fun r => ∀ c : Dev nD,
      r.2.mem ((c : Thread nD τ).loc main_v246) = G (V m c main_v245)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Result

end
-- ==== Proof.ReferenceResult.lean ====
/-
  The reference's result read at an element. Its last stages transpose the product of the two samples to
  `[524288, 128]`, split the channel axis into 16 components of 8 outputs, add the components from zero and apply
  `1 / (1 + exp (−s))`: at point `n` and output `o` that is the logistic function of the sum, over the sixteen components
  `k`, of the product at channel `8·k + o` and point `n`. The product itself is the reference's two bilinear samples
  (`Sample.blend`) at the reference's own one-axis stages.
-/
import proofs.«130800_j2164663517945_2_alg».proof.Proof.ReferenceRead
import proofs.«130800_j2164663517945_2_alg».proof.Proof.SampleReference
import Idealize.ShloMosaic.Lib.ValueIdx
import Idealize.ShloMosaic.Lib.IdealHost
import Idealize.ShloMosaic.PureOps.Ideal.Laws

noncomputable section

open scoped BigOperators

namespace Cert.ReferenceIdeal.Result

open Cert.ReferenceIdeal Cert.ReferenceIdeal.ReadP Cert.ReferenceIdeal.Sample Idealize.ShloMosaic Idealize.ShloMosaic.ValueIdx

/-- The product of the two samples, `[128, 524288]`: the stage before the transpose. -/
def feat {F : FTy → Type} [FloatOps F] (x0 : FVec F S524288x4 .f32) (x1 x2 : FVec F S128x512x512 .f32) (x3 : FVec F S2x4 .f32) :
    FVec F S128x524288 .f32 :=
  mulf
    (blend x1 (val_main_v55 x0 x3) (val_main_v76 x0 x3) (val_main_v96 x0 x3) (val_main_v119 x0 x3) (val_main_v40 x0 x3) (val_main_v42 x0 x3))
    (blend x2 (val_main_v172 x0 x3) (val_main_v193 x0 x3) (val_main_v213 x0 x3) (val_main_v236 x0 x3) (val_main_v157 x0 x3) (val_main_v159 x0 x3))

/-- The reference's stage is that product: its operations are `blend`'s, in order. -/
theorem product_eq {F : FTy → Type} [FloatOps F] (x0 : FVec F S524288x4 .f32) (x1 x2 : FVec F S128x512x512 .f32) (x3 : FVec F S2x4 .f32) :
    val_main_v251 (F := F) x0 x1 x2 x3 = feat x0 x1 x2 x3 := rfl

/-- Where the split channel axis reads the transposed product: component `k`, output `o` of point `n` is channel `8·k + o`. -/
theorem split_idx (n : Fin 524288) (o : Fin 8) (k : Fin 16) :
    idx_main_v252 (idx_main_v253 (idx_main_v254 (ix2 n o) k)) = ix2 ⟨o.val + 8 * k.val, by omega⟩ n := by
  funext a
  refine Fin.ext ?_
  match a with
  | ⟨0, _⟩ => show ((n.val * 16 + k.val) * 8 + o.val) % 128 = o.val + 8 * k.val; omega
  | ⟨1, _⟩ => show ((n.val * 16 + k.val) * 8 + o.val) / 128 = n.val; omega

/-- THE REFERENCE'S RESULT at (point `n`, output `o`). -/
theorem result_apply (x0 : FVec Ideal S524288x4 .f32) (x1 x2 : FVec Ideal S128x512x512 .f32) (x3 : FVec Ideal S2x4 .f32)
    (n : Fin 524288) (o : Fin 8) :
    val_main_v260 (F := Ideal) x0 x1 x2 x3 (ix2 n o)
      = Ideal.logistic (∑ k : Fin 16, feat x0 x1 x2 x3 (ix2 ⟨o.val + 8 * k.val, by omega⟩ n)) := by
  have hk : ∀ k : Fin 16, val_main_v253 (F := Ideal) x0 x1 x2 x3 (idx_main_v254 (ix2 n o) k)
      = feat x0 x1 x2 x3 (ix2 ⟨o.val + 8 * k.val, by omega⟩ n) := by
    intro k
    rw [val_main_v253_apply, val_main_v252_apply, product_eq]
    exact congrArg _ (split_idx n o k)
  rw [val_main_v260_apply, val_main_v259_apply, val_main_cst_68_apply, val_main_v258_apply, val_main_v257_apply, val_main_cst_67_apply,
    val_main_v256_apply, val_main_v255_apply, val_main_v254_apply, val_main_cst_66_apply, Finset.sum_congr rfl (fun k _ => hk k)]
  show Ideal.div (Ideal.ofBits .f32 0x3F800000#32) (Ideal.ofBits .f32 0x3F800000#32
      + Ideal.exp (-(Ideal.ofBits .f32 0x00000000#32 + ∑ k : Fin 16, feat x0 x1 x2 x3 (ix2 ⟨o.val + 8 * k.val, by omega⟩ n)))) = _
  rw [Ideal.ofBits_one_f32, Ideal.ofBits_zero_f32, zero_add]
  rfl

end Cert.ReferenceIdeal.Result

end
-- ==== Proof.lean ====
/-
  The kernel's entry point and its jnp reference compute, at every point `n` of 524288 and output `o` of 8,

      sigmoid ( Σ_{k < 16}  uv[n, o + 8k] · st[n, o + 8k] ),

  where `uv[n, c]` and `st[n, c]` are bilinear samples of channel `c` of two stacks of 128 planes of 512 × 512 pixels at
  the point's normalized coordinates. The host code on both sides normalizes the points against the bounds, scales to
  pixel units, floors, clips and wraps the corner indices and takes the fractional offsets by the SAME operations in the
  same order; the two programs differ in layout only. The kernel's host code transposes each stack to channel-last and
  gathers `[point, channel]` rows, weights as columns; the reference gathers `[channel, point]` from the stack as given,
  weights as rows, and transposes the product at the end. Read at an element the two samples are one expression of the
  extended reals (Proof/SampleBridge.lean). The pallas_call adds the sixteen 8-lane slices of a block of rows one after
  the other and applies the logistic function; the reference splits the channel axis as [16, 8], adds from zero along the
  16 and applies 1 / (1 + exp (−s)): the same sum (addition of extended reals is commutative and associative, and adding
  the reference's initial zero changes nothing) under the same function. No law that needs finite inputs is used.

  The three frames are the programs' runs with the results dropped; the ideal pass rewrote nothing, so `preserves` is `True`.
-/
import proofs.«130800_j2164663517945_2_alg».proof.Defs
import proofs.«130800_j2164663517945_2_alg».proof.Proof.Gen.Kernel
import proofs.«130800_j2164663517945_2_alg».proof.Proof.Gen.Kernel.Skeleton
import proofs.«130800_j2164663517945_2_alg».proof.Proof.Gen.Kernel.Launch
import proofs.«130800_j2164663517945_2_alg».proof.Proof.Gen.Kernel.Points
import proofs.«130800_j2164663517945_2_alg».proof.Proof.Gen.Kernel.Frame
import proofs.«130800_j2164663517945_2_alg».proof.Proof.Gen.KernelIdeal
import proofs.«130800_j2164663517945_2_alg».proof.Proof.Gen.KernelIdeal.Skeleton
import proofs.«130800_j2164663517945_2_alg».proof.Proof.Gen.KernelIdeal.Launch
import proofs.«130800_j2164663517945_2_alg».proof.Proof.Gen.KernelIdeal.Points
import proofs.«130800_j2164663517945_2_alg».proof.Proof.Gen.KernelIdeal.Frame
import proofs.«130800_j2164663517945_2_alg».proof.Proof.Gen.ReferenceIdeal
import proofs.«130800_j2164663517945_2_alg».proof.Proof.Gen.Pre_finite_inputs
import proofs.«130800_j2164663517945_2_alg».proof.Proof.ReferenceRun
import proofs.«130800_j2164663517945_2_alg».proof.Proof.ReferenceRead
import proofs.«130800_j2164663517945_2_alg».proof.Proof.KernelValue
import proofs.«130800_j2164663517945_2_alg».proof.Proof.SampleBridge
import proofs.«130800_j2164663517945_2_alg».proof.Proof.KernelFeatures
import proofs.«130800_j2164663517945_2_alg».proof.Proof.KernelResult
import proofs.«130800_j2164663517945_2_alg».proof.Proof.ReferenceResult
import Idealize.ShloMosaic.Adequacy
import Idealize.ShloMosaic.Init

noncomputable section

open scoped BigOperators

namespace Cert.Proof

open Idealize.ShloMosaic Idealize.ShloMosaic.ValueIdx Idealize.SL.Sem

/-- The two products of samples agree element by element: the kernel's at (point, channel), the reference's at
    (channel, point). -/
theorem feat_eq (x0 : FVec Ideal Cert.KernelIdeal.S524288x4 .f32) (x1 x2 : FVec Ideal Cert.KernelIdeal.S128x512x512 .f32)
    (x3 : FVec Ideal Cert.KernelIdeal.S2x4 .f32) (n : Fin 524288) (c : Fin 128) :
    Cert.KernelIdeal.Features.feat (F := Ideal) x0 x1 x2 x3 (ix2 n c)
      = Cert.ReferenceIdeal.Result.feat (F := Ideal) x0 x1 x2 x3 (ix2 c n) := by
  unfold Cert.KernelIdeal.Features.feat Cert.ReferenceIdeal.Result.feat
  rw [mulf_apply, mulf_apply, Cert.Bridge.blend_eq, Cert.Bridge.blend_eq]

/-- The reference's result array is the kernel's function `G` of the kernel's staged features. -/
theorem result_eq (x0 : FVec Ideal Cert.KernelIdeal.S524288x4 .f32) (x1 x2 : FVec Ideal Cert.KernelIdeal.S128x512x512 .f32)
    (x3 : FVec Ideal Cert.KernelIdeal.S2x4 .f32) :
    Cert.ReferenceIdeal.ReadP.val_main_v260 (F := Ideal) x0 x1 x2 x3
      = Cert.KernelIdeal.Result.G (Cert.KernelIdeal.Features.feat (F := Ideal) x0 x1 x2 x3) := by
  funext i
  obtain ⟨n, o, rfl⟩ : ∃ (n : Fin 524288) (o : Fin 8), i = ix2 n o := ⟨i 0, i 1, eq_ix2 i⟩
  rw [Cert.ReferenceIdeal.Result.result_apply]
  unfold Cert.KernelIdeal.Result.G
  exact congrArg Ideal.logistic (Finset.sum_congr rfl fun k _ => (feat_eq x0 x1 x2 x3 n ⟨o.val + 8 * k.val, by omega⟩).symm)

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, the kernel ends with its result array at `G` of its staged features
    and the reference at its last stage of the same arguments: one array (`result_eq`). -/
theorem algebraic : Cert.algebraic_KernelIdeal_ReferenceIdeal := by
  intro m ρ m' ρ' _ hagree
  refine ⟨fun c => Cert.KernelIdeal.Result.G (Cert.KernelIdeal.Gen.V m c Cert.KernelIdeal.main_v245),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  show _ = Cert.KernelIdeal.Result.G (Cert.KernelIdeal.Gen.V m c Cert.KernelIdeal.main_v245)
  rw [Cert.KernelIdeal.Features.staged_eq]
  exact result_eq _ _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
